-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x3072 : Shape := ⟨2, ![1024, 3072]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2x2048x1024 .f32) (main_arg1 : FVec F S1024x3072 .f32) (main_arg2 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S2x2048x1024 : Shape := ⟨3, ![2, 2048, 1024]⟩
abbrev S1024x3072 : Shape := ⟨2, ![1024, 3072]⟩
abbrev S1024x1024 : Shape := ⟨2, ![1024, 1024]⟩
abbrev S4096x1024 : Shape := ⟨2, ![4096, 1024]⟩
abbrev S4096x3072 : Shape := ⟨2, ![4096, 3072]⟩
abbrev S512x1024 : Shape := ⟨2, ![512, 1024]⟩
abbrev S256x128 : Shape := ⟨2, ![256, 128]⟩
abbrev S2048x128 : Shape := ⟨2, ![2048, 128]⟩
abbrev S256x64 : Shape := ⟨2, ![256, 64]⟩
abbrev S2048x64 : Shape := ⟨2, ![2048, 64]⟩
abbrev S64x2048 : Shape := ⟨2, ![64, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 19
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S1024x1024, .f32⟩
  | .hbm, ⟨3, _⟩ => ⟨S4096x1024, .f32⟩
  | .hbm, ⟨4, _⟩ => ⟨S4096x3072, .bf16⟩
  | .hbm, ⟨5, _⟩ => ⟨S4096x1024, .bf16⟩
  | .hbm, ⟨6, _⟩ => ⟨S4096x1024, .f32⟩
  | .hbm, ⟨7, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S512x1024, .bf16⟩
  | .local _ .vmem, ⟨5, _⟩ => ⟨S512x1024, .bf16⟩
  | .local _ .vmem, ⟨6, _⟩ => ⟨S256x128, .bf16⟩
  | .local _ .vmem, ⟨7, _⟩ => ⟨S256x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S256x128, .bf16⟩
  | .local _ .vmem, ⟨13, _⟩ => ⟨S256x128, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .f32⟩
  | .local _ .vmem, ⟨17, _⟩ => ⟨S512x1024, .f32⟩
  | .local _ .vmem, ⟨18, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![2, 8, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage1_0 : Fin 2 → Memref sig .tc .vmem S256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S256x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S2x2048x1024_S4096x1024 : S2x2048x1024.ShapeCasts S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  packedbf16_S512x1024_S512x1024_0_0 : (Rect.unit (s := S512x1024) ![0, 0] S512x1024.size inb_S512x1024_S512x1024_0_0).PackedRows (EltTy.packing .bf16)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  slices_S256x128_o0_0_S256x64 : S256x128.Slices ![0, 0] S256x64
  slices_S2048x128_o0_0_S2048x64 : S2048x128.Slices ![0, 0] S2048x64
  transposes_S2048x64_p1_0_S64x2048 : S2048x64.Transposes [1, 0] S64x2048
  reduces_S256x2048_S256 : S256x2048.Reduces [1] S256
  shapeCasts_S256_S256x1 : S256.ShapeCasts S256x1
  broadcasts_S256x1_S256x2048 : S256x1.Broadcasts S256x2048
  slices_S256x128_o0_64_S256x64 : S256x128.Slices ![0, 64] S256x64
  slices_S2048x128_o0_64_S2048x64 : S2048x128.Slices ![0, 64] S2048x64
  concatenates_S256x64_S256x64_S256x128_d1 : Shape.Concatenates [S256x64, S256x64] S256x128 1
  packedbf16_S256x128_S256x128_0_0 : (Rect.unit (s := S256x128) ![0, 0] S256x128.size inb_S256x128_S256x128_0_0).PackedRows (EltTy.packing .bf16)
  shapeCasts_S4096x1024_S2x2048x1024 : S4096x1024.ShapeCasts S2x2048x1024
  dot_S512x1024_S1024x1024_S512x1024_1_0_0_1_n_n_wf : DotDims.WF S512x1024 S1024x1024 S512x1024 [1] [0] [0] [1] [] []
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .f32 = 32 ∨ (Rect.block (s := S1024x3072) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x3072.size a
  hwx0_2 : ∀ i : grid0.Coords, EltTy.bits .bf16 = 32 ∨ (Rect.block (s := S4096x3072) S512x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x128.size a ≤ S4096x3072.size a
  hwx1_0 : ∀ i : grid1.Coords, EltTy.bits .bf16 = 32 ∨ (Rect.block (s := S4096x3072) S256x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S4096x3072.size a
  hwx1_1 : ∀ i : grid1.Coords, EltTy.bits .bf16 = 32 ∨ (Rect.block (s := S4096x3072) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S4096x3072.size a
  hwx1_2 : ∀ i : grid1.Coords, EltTy.bits .bf16 = 32 ∨ (Rect.block (s := S4096x3072) S2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S4096x1024.size a
  hwx1_3 : ∀ i : grid1.Coords, EltTy.bits .bf16 = 32 ∨ (Rect.block (s := S4096x1024) S256x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S4096x1024.size a
  hwx2_2 : ∀ i : grid2.Coords, EltTy.bits .f32 = 32 ∨ (Rect.block (s := S4096x1024) S512x1024.size (cc2_transform_2 i) (hinb2_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S256x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1024x3072 : Shape := ⟨2, ![1024, 3072]⟩
abbrev S1024x1024 : Shape := ⟨2, ![1024, 1024]⟩
abbrev S2x2048x3072 : Shape := ⟨3, ![2, 2048, 3072]⟩
abbrev S2x2048x3x16x64 : Shape := ⟨5, ![2, 2048, 3, 16, 64]⟩
abbrev S3x2x16x2048x64 : Shape := ⟨5, ![3, 2, 16, 2048, 64]⟩
abbrev S1x2x16x2048x64 : Shape := ⟨5, ![1, 2, 16, 2048, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩

abbrev nBuf : Space → Nat
  | .hbm => 34
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S1024x1024, .f32⟩
  | .hbm, ⟨3, _⟩ => ⟨S2x2048x3072, .f32⟩
  | .hbm, ⟨4, _⟩ => ⟨S2x2048x3x16x64, .f32⟩
  | .hbm, ⟨5, _⟩ => ⟨S3x2x16x2048x64, .f32⟩
  | .hbm, ⟨6, _⟩ => ⟨S1x2x16x2048x64, .f32⟩
  | .hbm, ⟨7, _⟩ => ⟨S2x16x2048x64, .f32⟩
  | .hbm, ⟨8, _⟩ => ⟨S1x2x16x2048x64, .f32⟩
  | .hbm, ⟨9, _⟩ => ⟨S2x16x2048x64, .f32⟩
  | .hbm, ⟨10, _⟩ => ⟨S1x2x16x2048x64, .f32⟩
  | .hbm, ⟨11, _⟩ => ⟨S2x16x2048x64, .f32⟩
  | .hbm, ⟨12, _⟩ => ⟨S2x16x2048x2048, .f32⟩
  | .hbm, ⟨13, _⟩ => ⟨S_, .f32⟩
  | .hbm, ⟨14, _⟩ => ⟨S2x16x2048x2048, .f32⟩
  | .hbm, ⟨15, _⟩ => ⟨S2x16x2048x2048, .f32⟩
  | .hbm, ⟨16, _⟩ => ⟨S_, .f32⟩
  | .hbm, ⟨17, _⟩ => ⟨S2x16x2048, .f32⟩
  | .hbm, ⟨18, _⟩ => ⟨S_, .f32⟩
  | .hbm, ⟨19, _⟩ => ⟨S2x16x2048, .f32⟩
  | .hbm, ⟨20, _⟩ => ⟨S2x16x2048, .f32⟩
  | .hbm, ⟨21, _⟩ => ⟨S2x16x2048x1, .f32⟩
  | .hbm, ⟨22, _⟩ => ⟨S2x16x2048x2048, .f32⟩
  | .hbm, ⟨23, _⟩ => ⟨S2x16x2048x2048, .f32⟩
  | .hbm, ⟨24, _⟩ => ⟨S2x16x2048x2048, .f32⟩
  | .hbm, ⟨25, _⟩ => ⟨S_, .f32⟩
  | .hbm, ⟨26, _⟩ => ⟨S2x16x2048, .f32⟩
  | .hbm, ⟨27, _⟩ => ⟨S2x16x2048x1, .f32⟩
  | .hbm, ⟨28, _⟩ => ⟨S2x16x2048x2048, .f32⟩
  | .hbm, ⟨29, _⟩ => ⟨S2x16x2048x2048, .f32⟩
  | .hbm, ⟨30, _⟩ => ⟨S2x16x2048x64, .f32⟩
  | .hbm, ⟨31, _⟩ => ⟨S2x2048x16x64, .f32⟩
  | .hbm, ⟨32, _⟩ => ⟨S2x2048x1024, .f32⟩
  | .hbm, ⟨33, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]

class Facts₀ : Prop where
  shapeCasts_S2x2048x3072_S2x2048x3x16x64 : S2x2048x3072.ShapeCasts S2x2048x3x16x64
  transposes_S2x2048x3x16x64_S3x2x16x2048x64_2_0_3_1_4 : S2x2048x3x16x64.Transposes [2, 0, 3, 1, 4] S3x2x16x2048x64
  slices_S3x2x16x2048x64_S1x2x16x2048x64_0_0_0_0_0 : S3x2x16x2048x64.Slices ![0, 0, 0, 0, 0] S1x2x16x2048x64
  shapeCasts_S1x2x16x2048x64_S2x16x2048x64 : S1x2x16x2048x64.ShapeCasts S2x16x2048x64
  slices_S3x2x16x2048x64_S1x2x16x2048x64_1_0_0_0_0 : S3x2x16x2048x64.Slices ![1, 0, 0, 0, 0] S1x2x16x2048x64
  slices_S3x2x16x2048x64_S1x2x16x2048x64_2_0_0_0_0 : S3x2x16x2048x64.Slices ![2, 0, 0, 0, 0] S1x2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x3072_S2x2048x3072_2_0_01_1_n_n_wf : DotDims.WF S2x2048x1024 S1024x3072 S2x2048x3072 [2] [0] [0, 1] [1] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_0_01_1_n_n_wf : DotDims.WF S2x2048x1024 S1024x1024 S2x2048x1024 [2] [0] [0, 1] [1] [] []

variable [Facts₀]

def dot_S2x2048x1024_S1024x3072_S2x2048x3072_2_0_01_1_n_n : DotDims S2x2048x1024 S1024x3072 S2x2048x3072 where
  lhsContracting := [2]
  rhsContracting := [0]
  lhsNonContracting := [0, 1]
  rhsNonContracting := [1]
  lhsBatch := []
  rhsBatch := []
  wf := dot_S2x2048x1024_S1024x3072_S2x2048x3072_2_0_01_1_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_0_01_1_n_n : DotDims S2x2048x1024 S1024x1024 S2x2048x1024 where
  lhsContracting := [2]
  rhsContracting := [0]
  lhsNonContracting := [0, 1]
  rhsNonContracting := [1]
  lhsBatch := []
  rhsBatch := []
  wf := dot_S2x2048x1024_S1024x1024_S2x2048x1024_2_0_01_1_n_n_wf

class Facts : Prop extends Facts₀ where

variable [Facts]
-- ==== Proof.KRegion0.lean ====
/-
  The first kernel region (the projection X · Wq, a 3 × 8 grid of 512 × 1024 output blocks) as the pipeline sees it,
  at any float instance: what each window's block is at a grid point, what the body leaves in the output's staging
  buffer (the stored value of the two loaded blocks), the body's run, and the body obligation at every point.
  Inputs are left as found; the output buffer is overwritten whole by one store.
-/
import proofs.«164267_j82918638616721_2_alg».proof.Proof.Gen.Kernel.Launch
import proofs.«164267_j82918638616721_2_alg».proof.Proof.Gen.Kernel.Skeleton
import proofs.«164267_j82918638616721_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Att

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffer contents of the core when the region is entered: every statement below is made at this parameter. -/
variable (V : (c : Dev nD) → (b : Ref sig .tc) → Buf (Elt F) ((c : Thread nD τ).loc b))

/-! ## Blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether or not it was fetched there: unfetched,
    the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body -/

/-- The whole 512 × 1024 rectangle: the one access of the left input and of the output. -/
abbrev r0_a : Rect S512x1024 := Rect.unit (s := S512x1024) ![0, 0] S512x1024.size inb_S512x1024_S512x1024_0_0
/-- The whole 1024 × 1024 rectangle: the one access of the right input. -/
abbrev r0_b : Rect S1024x1024 := Rect.unit (s := S1024x1024) ![0, 0] S1024x1024.size inb_S1024x1024_S1024x1024_0_0

/-- The output's staging buffer after the body: its one store, of the product of the two loaded blocks. -/
def out0_2 (x0 : Vec F S512x1024 .f32) (x1 : Vec F S1024x1024 .f32) : Vec F S512x1024 .bf16 :=
  View.canon [⟨r0_a, k0_pay1 (View.ld x0 r0_a) (View.ld x1 r0_b)⟩]

/-- The one store covers the buffer. -/
theorem cover0_2 (p0 : Vec F S512x1024 .bf16) (y : S512x1024.Idx) :
    ∃ pc ∈ ([⟨r0_a, p0⟩] : List (View.Piece (Elt F) S512x1024 .bf16)), y ∈ pc.1.set :=
  View.cover_of_tiled [⟨r0_a, p0⟩] S512x1024.size (by rfl) y

set_option maxHeartbeats 1000000 in
/-- The body on whole staging buffers, the inputs at x0 and x1 and the output at anything, runs to the continuation
    with the inputs as they were and the output at out0_2 x0 x1. -/
theorem sound_kernel0 (c : Dev nD) (E : Set ℕ) (i : grid0.Coords)
    (arg2 : Memref sig .tc .vmem S512x1024 .f32) (harg2 : arg2.IsWhole) (arg3 : Memref sig .tc .vmem S1024x1024 .f32) (harg3 : arg3.IsWhole)
    (arg4 : Memref sig .tc .vmem S512x1024 .bf16) (harg4 : arg4.IsWhole)
    (x0 : Vec F S512x1024 .f32) (x1 : Vec F S1024x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__qkv_kernel i arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- Pipeline 0's proof data on core c: arrays as found; after the body each input's buffer at its block and the
    output's at out0_2 of the input blocks; the invariant is the untouched scoped rest and generator register;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Att

end
-- ==== Proof.KRegion1.lean ====
/-
  The second kernel region (attention, a 2 × 8 × 8 grid: batch, head pair, block of 256 query rows) as the pipeline
  sees it, at any float instance. Its three input windows all read the projected array (query, key and value column
  blocks of one head pair); the output window is a 256 × 128 block of the context array. Stated here: the windows'
  blocks, what the body leaves in the output's staging buffer (the stored value of the three loaded blocks), the
  body's run and the body obligation at every point. The three input windows hold the shared array at three disjoint
  shares that together make the full share.
-/
import proofs.«164267_j82918638616721_2_alg».proof.Proof.Gen.Kernel.Launch
import proofs.«164267_j82918638616721_2_alg».proof.Proof.Gen.Kernel.Skeleton
import proofs.«164267_j82918638616721_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Transfers

set_option maxRecDepth 16384

noncomputable section

namespace Cert.Kernel.Att

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffer contents of the core when the region is entered: every statement below is made at this parameter. -/
variable (V : (c : Dev nD) → (b : Ref sig .tc) → Buf (Elt F) ((c : Thread nD τ).loc b))

open Idealize.ShloMosaic.Transfers

/-! ## Blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether or not it was fetched there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body -/

/-- The whole 256 × 128 rectangle: the one access of the query block and of the output. -/
abbrev r1_a : Rect S256x128 := Rect.unit (s := S256x128) ![0, 0] S256x128.size inb_S256x128_S256x128_0_0
/-- The whole 2048 × 128 rectangle: the one access of the key block and of the value block. -/
abbrev r1_b : Rect S2048x128 := Rect.unit (s := S2048x128) ![0, 0] S2048x128.size inb_S2048x128_S2048x128_0_0

/-- The output's staging buffer after the body: its one store, of the two heads' results side by side, computed
    from the three loaded blocks. -/
def out1_3 (x0 : Vec F S256x128 .bf16) (x1 x2 : Vec F S2048x128 .bf16) : Vec F S256x128 .bf16 :=
  View.canon [⟨r1_a, k1_pay1 (k1_pay5 (View.ld x0 r1_a) (View.ld x1 r1_b) (View.ld x2 r1_b)) (k1_pay6 (View.ld x2 r1_b))
    (k1_pay7 (View.ld x0 r1_a) (View.ld x1 r1_b))⟩]

/-- The one store covers the buffer. -/
theorem cover1_3 (p0 : Vec F S256x128 .bf16) (y : S256x128.Idx) :
    ∃ pc ∈ ([⟨r1_a, p0⟩] : List (View.Piece (Elt F) S256x128 .bf16)), y ∈ pc.1.set :=
  View.cover_of_tiled [⟨r1_a, p0⟩] S256x128.size (by rfl) y

set_option maxHeartbeats 1000000 in
/-- The body on whole staging buffers, the inputs at x0, x1, x2 and the output at anything, runs to the continuation
    with the inputs as they were and the output at out1_3 x0 x1 x2. -/
theorem sound_kernel1 (c : Dev nD) (E : Set ℕ) (i : grid1.Coords)
    (arg3 : Memref sig .tc .vmem S256x128 .bf16) (harg3 : arg3.IsWhole) (arg4 : Memref sig .tc .vmem S2048x128 .bf16) (harg4 : arg4.IsWhole)
    (arg5 : Memref sig .tc .vmem S2048x128 .bf16) (harg5 : arg5.IsWhole) (arg6 : Memref sig .tc .vmem S256x128 .bf16) (harg6 : arg6.IsWhole)
    (x0 : Vec F S256x128 .bf16) (x1 x2 : Vec F S2048x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1_3 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The proof data -/

/-- The shares at which the three input windows hold the projected array: two successive halves and the remainder. -/
def q1 : Fin cfg1.W → PosShare TreeShare := fun w => match w with
  | ⟨0, _⟩ => shareTokN fullShare 0
  | ⟨1, _⟩ => shareTokN fullShare 1
  | ⟨2, _⟩ => shareDrop fullShare 2
  | ⟨_ + 3, _⟩ => fullShare

/-- Pipeline 1's proof data on core c: arrays as found; after the body each input's buffer at its block and the
    output's at out1_3 of the input blocks; the invariant is the untouched scoped rest and generator register;
    nothing owed; the inputs' shares as above. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := q1
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Att

end
-- ==== Proof.KRegion2.lean ====
/-
  The third kernel region (the output projection ctx · Wo, a grid of 8 row blocks of 512 × 1024) as the pipeline sees
  it, at any float instance: the windows' blocks, what the body leaves in the output's staging buffer (the stored value
  of the two loaded blocks), the body's run, and the body obligation at every point. The weight window is the whole
  1024 × 1024 array, staged once.
-/
import proofs.«164267_j82918638616721_2_alg».proof.Proof.Gen.Kernel.Launch
import proofs.«164267_j82918638616721_2_alg».proof.Proof.Gen.Kernel.Skeleton
import proofs.«164267_j82918638616721_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Att

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffer contents of the core when the region is entered: every statement below is made at this parameter. -/
variable (V : (c : Dev nD) → (b : Ref sig .tc) → Buf (Elt F) ((c : Thread nD τ).loc b))

/-! ## Blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether or not it was fetched there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body -/

/-- The whole 512 × 1024 rectangle: the one access of the left input and of the output. -/
abbrev r2_a : Rect S512x1024 := Rect.unit (s := S512x1024) ![0, 0] S512x1024.size inb_S512x1024_S512x1024_0_0
/-- The whole 1024 × 1024 rectangle: the one access of the right input. -/
abbrev r2_b : Rect S1024x1024 := Rect.unit (s := S1024x1024) ![0, 0] S1024x1024.size inb_S1024x1024_S1024x1024_0_0

/-- The output's staging buffer after the body: its one store, of the product of the two loaded blocks. -/
def out2_2 (x0 : Vec F S512x1024 .bf16) (x1 : Vec F S1024x1024 .f32) : Vec F S512x1024 .f32 :=
  View.canon [⟨r2_a, k2_pay1 (View.ld x0 r2_a) (View.ld x1 r2_b)⟩]

/-- The one store covers the buffer. -/
theorem cover2_2 (p0 : Vec F S512x1024 .f32) (y : S512x1024.Idx) :
    ∃ pc ∈ ([⟨r2_a, p0⟩] : List (View.Piece (Elt F) S512x1024 .f32)), y ∈ pc.1.set :=
  View.cover_of_tiled [⟨r2_a, p0⟩] S512x1024.size (by rfl) y

set_option maxHeartbeats 1000000 in
/-- The body on whole staging buffers, the inputs at x0 and x1 and the output at anything, runs to the continuation
    with the inputs as they were and the output at out2_2 x0 x1. -/
theorem sound_kernel2 (c : Dev nD) (E : Set ℕ) (i : grid2.Coords)
    (arg1 : Memref sig .tc .vmem S512x1024 .bf16) (harg1 : arg1.IsWhole) (arg2 : Memref sig .tc .vmem S1024x1024 .f32) (harg2 : arg2.IsWhole)
    (arg3 : Memref sig .tc .vmem S512x1024 .f32) (harg3 : arg3.IsWhole)
    (x0 : Vec F S512x1024 .bf16) (x1 : Vec F S1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__outproj_kernel i arg1 harg1 arg2 harg2 arg3 harg3) K := by
  simp only [cc2__outproj_kernel_eq_skeleton]; unfold cc2__outproj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The proof data -/

/-- Pipeline 2's proof data on core c: arrays as found; after the body each input's buffer at its block and the
    output's at out2_2 of the input blocks; the invariant is the untouched scoped rest and generator register;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Att

end
-- ==== Proof.LibShareDeal.lean ====
/-
  Dealing one held array to eight readers.

  A points-to at a share `q` can be cut along the share: halve `q`, keep the left half and hand out the right one;
  halve what was kept, and so on. After seven cuts there are seven handed-out halves — the successive right halves of
  `q` — and the left remainder, eight positive shares that compose back to `q`. Each holder may read the elements
  and none may write them. This module states the cut for any location, element set, contents and share: one step,
  and the eight-way chain both ways.
-/
import Idealize.ShloMosaic.Lib.Transfers

noncomputable section

namespace Cert.Lib

open Idealize.SL
open Idealize.SL.BI (sProp)
open scoped Idealize.SL.BI
open Idealize.SL.BI.BIBase Idealize.SL.BI.Laws Idealize.SL.Sem Idealize.SL.ProofMode
open Idealize.SL.RA
open Idealize.ShloMosaic Idealize.ShloMosaic.Transfers

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable {ℓ : Loc nD τ sig} {S : Finset (Idx ℓ)} {f : Buf Val ℓ}

/-- One cut: what remains after `k` halvings is the `k`-th handed-out half and what remains after `k + 1`. -/
theorem pointsTo_cut (q : PosShare TreeShare) (k : ℕ) :
    (ℓ ↦[S]{shareDrop q k} f : sProp 𝕄) ⊣⊢ iprop((ℓ ↦[S]{shareTokN q k} f) ∗ ℓ ↦[S]{shareDrop q (k + 1)} f) :=
  ⟨(pointsTo_share (PosShare.mem_left_op_right (shareDrop q k))).1.trans sep_comm.1,
   sep_comm.1.trans (pointsTo_share (PosShare.mem_left_op_right (shareDrop q k))).2⟩

/-- Seven cuts: a points-to at `q` is the seven handed-out halves and the remainder, in the order handed out. -/
theorem pointsTo_deal_eight (q : PosShare TreeShare) :
    (ℓ ↦[S]{q} f : sProp 𝕄) ⊢
      iprop((ℓ ↦[S]{shareTokN q 0} f) ∗ (ℓ ↦[S]{shareTokN q 1} f) ∗ (ℓ ↦[S]{shareTokN q 2} f) ∗ (ℓ ↦[S]{shareTokN q 3} f)
        ∗ (ℓ ↦[S]{shareTokN q 4} f) ∗ (ℓ ↦[S]{shareTokN q 5} f) ∗ (ℓ ↦[S]{shareTokN q 6} f) ∗ ℓ ↦[S]{shareDrop q 7} f) :=
  (pointsTo_cut q 0).1.trans <| sep_mono .rfl <|
  (pointsTo_cut q 1).1.trans <| sep_mono .rfl <|
  (pointsTo_cut q 2).1.trans <| sep_mono .rfl <|
  (pointsTo_cut q 3).1.trans <| sep_mono .rfl <|
  (pointsTo_cut q 4).1.trans <| sep_mono .rfl <|
  (pointsTo_cut q 5).1.trans <| sep_mono .rfl <|
  (pointsTo_cut q 6).1

/-- And back: the eight pieces compose to the points-to at `q`. -/
theorem pointsTo_join_eight (q : PosShare TreeShare) :
    iprop((ℓ ↦[S]{shareTokN q 0} f) ∗ (ℓ ↦[S]{shareTokN q 1} f) ∗ (ℓ ↦[S]{shareTokN q 2} f) ∗ (ℓ ↦[S]{shareTokN q 3} f)
        ∗ (ℓ ↦[S]{shareTokN q 4} f) ∗ (ℓ ↦[S]{shareTokN q 5} f) ∗ (ℓ ↦[S]{shareTokN q 6} f) ∗ ℓ ↦[S]{shareDrop q 7} f)
      ⊢ (ℓ ↦[S]{q} f : sProp 𝕄) :=
  (sep_mono .rfl <| (sep_mono .rfl <| (sep_mono .rfl <| (sep_mono .rfl <| (sep_mono .rfl <| (sep_mono .rfl <|
    (pointsTo_cut q 6).2).trans (pointsTo_cut q 5).2).trans (pointsTo_cut q 4).2).trans (pointsTo_cut q 3).2).trans
    (pointsTo_cut q 2).2).trans (pointsTo_cut q 1).2).trans (pointsTo_cut q 0).2

end Cert.Lib

end
-- ==== Proof.KRegion1Shares.lean ====
/-
  The second region's three input windows read one array. At the region's entry the core holds that array whole, at
  the full share; the pipeline wants one points-to per window. The full share is cut into a half, a half of the
  remaining half, and the remainder — three disjoint shares that compose to the full share — one per input window;
  the output window's array is held at the full share. At the exit the three pieces (their contents unchanged: input
  windows are only read) are joined back, and the output array is at what the write-backs left.
-/
import proofs.«164267_j82918638616721_2_alg».proof.Proof.KRegion1
import proofs.«164267_j82918638616721_2_alg».proof.Proof.LibShareDeal

set_option maxRecDepth 16384

noncomputable section

namespace Cert.Kernel.Att

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the region's arrays are two: the projected array and the context array. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v1) ↦{fullShare} W main_v1) ∗ (((c : Thread nD τ).loc main_v2) ↦{fullShare} W main_v2)) := by
  unfold Pipeline.arrBufs
  exact bigSep_eq_bigSepL_of_eq [main_v1, main_v2] (by decide) (by decide) _

/-- The pipeline's arrays, window by window, at the shares of the proof data. -/
theorem arrays1_eq (c : Dev nD) (Fw : (w : Fin cfg1.W) → Buf (Elt F) ((cfg1.win w).arr.view.loc (c : Thread nD τ))) :
    ((dat1 V c).arrays Fw : sProp 𝕄)
      = iprop((((c : Thread nD τ).loc main_v1) ↦{shareTokN fullShare 0} Fw 0) ∗ (((c : Thread nD τ).loc main_v1) ↦{shareTokN fullShare 1} Fw 1)
          ∗ (((c : Thread nD τ).loc main_v1) ↦{shareDrop fullShare 2} Fw 2) ∗ (((c : Thread nD τ).loc main_v2) ↦{fullShare} Fw 3)) := by
  have e : ((dat1 V c).arrays Fw : sProp 𝕄) = bigSep Finset.univ fun w : Fin cfg1.W =>
      (((c : Thread nD τ).loc (Pipeline.arrRef spec1 w)) ↦{(dat1 V c).share w} Fw w : sProp 𝕄) := by
    unfold Pipeline.Dat.arrays
    exact bigSep_congr fun w _ => by rw [(arr_whole1 w).set_eq_univ]
  rw [e, bigSep_W1]
  rfl

/-- Entry: the core's unscoped buffers at contents V are the pipeline's arrays at the entry contents — the projected
    array's full share cut into the three input windows' shares — and the unscoped rest. -/
theorem entry1 (c : Dev nD) :
    (unscopedBufs c (V c) : sProp 𝕄) ⊢ iprop((dat1 V c).arrays ((dat1 V c).arrAt · 0)
      ∗ Pipeline.unscopedRest (Ix := Unit) (Name := ℕ) (U := UR sig nD τ) (Lvl := ℕ) spec1 c (V c)) := by
  have hs : (unscopedBufs c (V c) : sProp 𝕄) = iprop((Pipeline.arrBufs spec1 c (V c) : sProp 𝕄)
      ∗ Pipeline.unscopedRest (Ix := Unit) (Name := ℕ) (U := UR sig nD τ) (Lvl := ℕ) spec1 c (V c)) :=
    Pipeline.unscopedBufs_split₀ cfgs 1 winFacts₀1.arr_unscoped c (V c)
  rw [hs]
  refine sep_mono ?_ .rfl
  rw [arrBufs1_eq, arrays1_eq]
  show iprop((((c : Thread nD τ).loc main_v1) ↦{fullShare} V c main_v1) ∗ (((c : Thread nD τ).loc main_v2) ↦{fullShare} V c main_v2))
    ⊢ (iprop((((c : Thread nD τ).loc main_v1) ↦{shareTokN fullShare 0} V c main_v1) ∗ (((c : Thread nD τ).loc main_v1) ↦{shareTokN fullShare 1} V c main_v1)
          ∗ (((c : Thread nD τ).loc main_v1) ↦{shareDrop fullShare 2} V c main_v1) ∗ (((c : Thread nD τ).loc main_v2) ↦{fullShare} V c main_v2)) : sProp 𝕄)
  exact (sep_mono ((Cert.Lib.pointsTo_cut fullShare 0).1.trans (sep_mono .rfl (Cert.Lib.pointsTo_cut fullShare 1).1)) .rfl).trans
    (sep_assoc.1.trans (sep_mono .rfl sep_assoc.1))

/-- Exit: the pipeline's arrays at what it leaves — the three pieces of the projected array, unchanged, joined back to
    the full share; the context array at its final contents — and the unscoped rest are the core's unscoped buffers at
    any contents W' that have the context array there and agree with V elsewhere. -/
theorem exit1 (c : Dev nD) (W' : (b : Ref sig .tc) → Buf (Elt F) ((c : Thread nD τ).loc b))
    (hv2 : W' main_v2 = (dat1 V c).arrAt 3 cfg1.N) (hrest : ∀ b, b ≠ main_v2 → W' b = V c b) :
    iprop((dat1 V c).arrays ((dat1 V c).arrAt · cfg1.N)
      ∗ Pipeline.unscopedRest (Ix := Unit) (Name := ℕ) (U := UR sig nD τ) (Lvl := ℕ) spec1 c (V c)) ⊢ (unscopedBufs c W' : sProp 𝕄) := by
  have hs : (unscopedBufs c W' : sProp 𝕄) = iprop((Pipeline.arrBufs spec1 c W' : sProp 𝕄)
      ∗ Pipeline.unscopedRest (Ix := Unit) (Name := ℕ) (U := UR sig nD τ) (Lvl := ℕ) spec1 c W') :=
    Pipeline.unscopedBufs_split₀ cfgs 1 winFacts₀1.arr_unscoped c W'
  rw [hs, arrBufs1_eq, arrays1_eq]
  have hr : (Pipeline.unscopedRest (Ix := Unit) (Name := ℕ) (U := UR sig nD τ) (Lvl := ℕ) spec1 c (V c) : sProp 𝕄)
      = Pipeline.unscopedRest (Ix := Unit) (Name := ℕ) (U := UR sig nD τ) (Lvl := ℕ) spec1 c W' := by
    unfold Pipeline.unscopedRest
    exact bigSep_congr fun b hb => by
      rw [hrest b (fun e => (Finset.mem_sdiff.mp hb).2 (e ▸ Finset.mem_image.mpr ⟨3, Finset.mem_univ _, rfl⟩))]
  rw [hr, hrest main_v1 (by decide), hv2, (dat1 V c).arrAt_in 0 rfl cfg1.N, (dat1 V c).arrAt_in 1 rfl cfg1.N, (dat1 V c).arrAt_in 2 rfl cfg1.N]
  refine sep_mono ?_ .rfl
  show (iprop((((c : Thread nD τ).loc main_v1) ↦{shareTokN fullShare 0} V c main_v1) ∗ (((c : Thread nD τ).loc main_v1) ↦{shareTokN fullShare 1} V c main_v1)
          ∗ (((c : Thread nD τ).loc main_v1) ↦{shareDrop fullShare 2} V c main_v1) ∗ (((c : Thread nD τ).loc main_v2) ↦{fullShare} (dat1 V c).arrAt 3 cfg1.N)) : sProp 𝕄)
    ⊢ iprop((((c : Thread nD τ).loc main_v1) ↦{fullShare} V c main_v1) ∗ (((c : Thread nD τ).loc main_v2) ↦{fullShare} (dat1 V c).arrAt 3 cfg1.N))
  exact (sep_mono .rfl sep_assoc.2).trans (sep_assoc.2.trans
    (sep_mono ((sep_mono .rfl (Cert.Lib.pointsTo_cut fullShare 1).2).trans (Cert.Lib.pointsTo_cut fullShare 0).2) .rfl))

end Cert.Kernel.Att

end
-- ==== Proof.KRun.lean ====
/-
  The whole program as a sequence of five segments — a reshape on the host, the three kernel regions, a reshape on the
  host — at any float instance: the contents of every buffer at each boundary (each region's arrays at what its
  write-backs leave, everything else as entered), the regions as segments of the launch, and the run itself: every
  weakly fair execution terminates, faults nowhere, and ends with every unscoped buffer at the last boundary's
  contents. The argument arrays are read by input windows or bypassed, never written, so they end as launched; the
  result buffer ends at the reshape of the third region's output array.

  In the second region three input windows read one array; the array's full share is cut into two halves and a
  remainder on entry and joined on exit.
-/
import proofs.«164267_j82918638616721_2_alg».proof.Proof.KRegion0
import proofs.«164267_j82918638616721_2_alg».proof.Proof.KRegion1
import proofs.«164267_j82918638616721_2_alg».proof.Proof.KRegion2
import proofs.«164267_j82918638616721_2_alg».proof.Proof.KRegion1Shares
import proofs.«164267_j82918638616721_2_alg».proof.Proof.Gen.Kernel.Regions

set_option maxRecDepth 16384

noncomputable section

namespace Cert.Kernel.Att

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first reshape: the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its arrays at what the pipeline leaves. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second region: the context array at what the pipeline leaves, everything else as entered (the
    projected array is only read). -/
def W3 (c : Dev nD) : Valuation τ sig (Elt F) :=
  Function.update (W2 m ρ c) (Proc.devRef .tc main_v2) ((dat1 (V2 m ρ) c).arrAt 3 cfg1.N)
theorem W3_v2 (c : Dev nD) : W3 m ρ c (Proc.devRef .tc main_v2) = (dat1 (V2 m ρ) c).arrAt 3 cfg1.N := by
  unfold W3; exact Function.update_self ..
theorem W3_of_ne (c : Dev nD) (b : Ref sig .tc) (hb : b ≠ main_v2) :
    W3 m ρ c (Proc.devRef .tc b) = W2 m ρ c (Proc.devRef .tc b) := by
  unfold W3; exact Function.update_of_ne (StableHlo.devRef_ne_of_ne hb) ..
abbrev V3 : (c : Dev nD) → (b : Ref sig .tc) → Buf (Elt F) ((c : Thread nD τ).loc b) := fun c b => W3 m ρ c b

/-- After the third region. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the last reshape: the end. -/
abbrev W5 : Dev nD → Valuation τ sig (Elt F) := fun c => StableHlo.after hostOps3 (W4 m ρ c)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps3 _ hostOps3_writes (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps3 _ hostOps3_writes (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_writes_sub hostOps0 _ hostOps0_writes (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps3 _ hostOps3_writes (by decide)
    _ = W3 m ρ c (Proc.devRef .tc main_arg2) := (W4_arr m ρ c 1).trans (((dat2 (V3 m ρ) c).arrAt_in 1 rfl _).trans (A_eq2 (V3 m ρ) c 1))
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-! ## The proof data family and what rides along -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything. -/
abbrev L : GSem nD τ sig → Finset Unit := fun _ => ∅
abbrev lv : GSem nD τ sig → Unit → ℕ := fun _ _ => 0
/-- Beside the buffers through every segment: the generator register at some state and the core's dues, at nothing. -/
abbrev R (c : Dev nD) : sProp 𝕄 := iprop((∃ r, prngReg c r) ∗ ∃ W, owes (c : Thread nD τ) (0 : CellTallies nD τ sig Unit) W)
/-- A host stretch as a segment over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 as a segment: entered with every unscoped buffer at the boundary contents before it, left at those after
    it. Its arrays are split out of the unscoped buffers at entry and put back at exit; the generator register
    goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at the boundary contents before it, left at those after
    it. Its arrays are split out of the unscoped buffers at entry and put back at exit; the generator register
    goes into the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment. Its three input windows read the projected array: at entry the array's full share is cut
    into two halves and the remainder, one piece per window; at exit the pieces are joined. The context array is its
    one output. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (unscopedBufs c (V2 m ρ c) : sProp 𝕄) ⊢ iprop((pdats m ρ 1 c).arrays ((pdats m ρ 1 c).arrAt · 0)
        ∗ Pipeline.unscopedRest (Ix := Unit) (Name := ℕ) (U := UR sig nD τ) (Lvl := ℕ) spec1 c (V2 m ρ c)) := entry1 (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
        ∗ Pipeline.unscopedRest (Ix := Unit) (Name := ℕ) (U := UR sig nD τ) (Lvl := ℕ) spec1 c (V2 m ρ c)) ⊢ (unscopedBufs c (V3 m ρ c) : sProp 𝕄) :=
      exit1 (V2 m ρ) c (V3 m ρ c) (W3_v2 m ρ c) (fun b hb => W3_of_ne m ρ c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]

theorem main_run (c : Dev nD) : main (F := F) c = Pipeline.Seg.run (segs m ρ) := (main_chain c).trans (by chain_rfl)

set_option backward.isDefEq.respectTransparency.types false in
/-- Every weakly fair execution of the program from memory m with zero counters terminates, nothing faulting, and in
    every final memory each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Att

end
-- ==== Proof.Region0.lean ====
/-
  The first kernel region (the projection X · Wq, a 3 × 8 grid of 512 × 1024 output blocks) as the pipeline sees it,
  at any float instance: what each window's block is at a grid point, what the body leaves in the output's staging
  buffer (the stored value of the two loaded blocks), the body's run, and the body obligation at every point.
  Inputs are left as found; the output buffer is overwritten whole by one store.
-/
import proofs.«164267_j82918638616721_2_alg».proof.Proof.Gen.KernelIdeal.Launch
import proofs.«164267_j82918638616721_2_alg».proof.Proof.Gen.KernelIdeal.Skeleton
import proofs.«164267_j82918638616721_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffer contents of the core when the region is entered: every statement below is made at this parameter. -/
variable (V : (c : Dev nD) → (b : Ref sig .tc) → Buf (Elt F) ((c : Thread nD τ).loc b))

/-! ## Blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether or not it was fetched there: unfetched,
    the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body -/

/-- The whole 512 × 1024 rectangle: the one access of the left input and of the output. -/
abbrev r0_a : Rect S512x1024 := Rect.unit (s := S512x1024) ![0, 0] S512x1024.size inb_S512x1024_S512x1024_0_0
/-- The whole 1024 × 1024 rectangle: the one access of the right input. -/
abbrev r0_b : Rect S1024x1024 := Rect.unit (s := S1024x1024) ![0, 0] S1024x1024.size inb_S1024x1024_S1024x1024_0_0

/-- The output's staging buffer after the body: its one store, of the product of the two loaded blocks. -/
def out0_2 (x0 : Vec F S512x1024 .f32) (x1 : Vec F S1024x1024 .f32) : Vec F S512x1024 .bf16 :=
  View.canon [⟨r0_a, k0_pay1 (View.ld x0 r0_a) (View.ld x1 r0_b)⟩]

/-- The one store covers the buffer. -/
theorem cover0_2 (p0 : Vec F S512x1024 .bf16) (y : S512x1024.Idx) :
    ∃ pc ∈ ([⟨r0_a, p0⟩] : List (View.Piece (Elt F) S512x1024 .bf16)), y ∈ pc.1.set :=
  View.cover_of_tiled [⟨r0_a, p0⟩] S512x1024.size (by rfl) y

set_option maxHeartbeats 1000000 in
/-- The body on whole staging buffers, the inputs at x0 and x1 and the output at anything, runs to the continuation
    with the inputs as they were and the output at out0_2 x0 x1. -/
theorem sound_kernel0 (c : Dev nD) (E : Set ℕ) (i : grid0.Coords)
    (arg2 : Memref sig .tc .vmem S512x1024 .f32) (harg2 : arg2.IsWhole) (arg3 : Memref sig .tc .vmem S1024x1024 .f32) (harg3 : arg3.IsWhole)
    (arg4 : Memref sig .tc .vmem S512x1024 .bf16) (harg4 : arg4.IsWhole)
    (x0 : Vec F S512x1024 .f32) (x1 : Vec F S1024x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__qkv_kernel i arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- Pipeline 0's proof data on core c: arrays as found; after the body each input's buffer at its block and the
    output's at out0_2 of the input blocks; the invariant is the untouched scoped rest and generator register;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Att

end
-- ==== Proof.Region1.lean ====
/-
  The second kernel region (attention, a 2 × 8 × 8 grid: batch, head pair, block of 256 query rows) as the pipeline
  sees it, at any float instance. Its three input windows all read the projected array (query, key and value column
  blocks of one head pair); the output window is a 256 × 128 block of the context array. Stated here: the windows'
  blocks, what the body leaves in the output's staging buffer (the stored value of the three loaded blocks), the
  body's run and the body obligation at every point. The three input windows hold the shared array at three disjoint
  shares that together make the full share.
-/
import proofs.«164267_j82918638616721_2_alg».proof.Proof.Gen.KernelIdeal.Launch
import proofs.«164267_j82918638616721_2_alg».proof.Proof.Gen.KernelIdeal.Skeleton
import proofs.«164267_j82918638616721_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Transfers

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffer contents of the core when the region is entered: every statement below is made at this parameter. -/
variable (V : (c : Dev nD) → (b : Ref sig .tc) → Buf (Elt F) ((c : Thread nD τ).loc b))

open Idealize.ShloMosaic.Transfers

/-! ## Blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether or not it was fetched there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body -/

/-- The whole 256 × 128 rectangle: the one access of the query block and of the output. -/
abbrev r1_a : Rect S256x128 := Rect.unit (s := S256x128) ![0, 0] S256x128.size inb_S256x128_S256x128_0_0
/-- The whole 2048 × 128 rectangle: the one access of the key block and of the value block. -/
abbrev r1_b : Rect S2048x128 := Rect.unit (s := S2048x128) ![0, 0] S2048x128.size inb_S2048x128_S2048x128_0_0

/-- The output's staging buffer after the body: its one store, of the two heads' results side by side, computed
    from the three loaded blocks. -/
def out1_3 (x0 : Vec F S256x128 .bf16) (x1 x2 : Vec F S2048x128 .bf16) : Vec F S256x128 .bf16 :=
  View.canon [⟨r1_a, k1_pay1 (k1_pay5 (View.ld x0 r1_a) (View.ld x1 r1_b) (View.ld x2 r1_b)) (k1_pay6 (View.ld x2 r1_b))
    (k1_pay7 (View.ld x0 r1_a) (View.ld x1 r1_b))⟩]

/-- The one store covers the buffer. -/
theorem cover1_3 (p0 : Vec F S256x128 .bf16) (y : S256x128.Idx) :
    ∃ pc ∈ ([⟨r1_a, p0⟩] : List (View.Piece (Elt F) S256x128 .bf16)), y ∈ pc.1.set :=
  View.cover_of_tiled [⟨r1_a, p0⟩] S256x128.size (by rfl) y

set_option maxHeartbeats 1000000 in
/-- The body on whole staging buffers, the inputs at x0, x1, x2 and the output at anything, runs to the continuation
    with the inputs as they were and the output at out1_3 x0 x1 x2. -/
theorem sound_kernel1 (c : Dev nD) (E : Set ℕ) (i : grid1.Coords)
    (arg3 : Memref sig .tc .vmem S256x128 .bf16) (harg3 : arg3.IsWhole) (arg4 : Memref sig .tc .vmem S2048x128 .bf16) (harg4 : arg4.IsWhole)
    (arg5 : Memref sig .tc .vmem S2048x128 .bf16) (harg5 : arg5.IsWhole) (arg6 : Memref sig .tc .vmem S256x128 .bf16) (harg6 : arg6.IsWhole)
    (x0 : Vec F S256x128 .bf16) (x1 x2 : Vec F S2048x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1_3 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The proof data -/

/-- The shares at which the three input windows hold the projected array: two successive halves and the remainder. -/
def q1 : Fin cfg1.W → PosShare TreeShare := fun w => match w with
  | ⟨0, _⟩ => shareTokN fullShare 0
  | ⟨1, _⟩ => shareTokN fullShare 1
  | ⟨2, _⟩ => shareDrop fullShare 2
  | ⟨_ + 3, _⟩ => fullShare

/-- Pipeline 1's proof data on core c: arrays as found; after the body each input's buffer at its block and the
    output's at out1_3 of the input blocks; the invariant is the untouched scoped rest and generator register;
    nothing owed; the inputs' shares as above. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := q1
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Att

end
-- ==== Proof.Region2.lean ====
/-
  The third kernel region (the output projection ctx · Wo, a grid of 8 row blocks of 512 × 1024) as the pipeline sees
  it, at any float instance: the windows' blocks, what the body leaves in the output's staging buffer (the stored value
  of the two loaded blocks), the body's run, and the body obligation at every point. The weight window is the whole
  1024 × 1024 array, staged once.
-/
import proofs.«164267_j82918638616721_2_alg».proof.Proof.Gen.KernelIdeal.Launch
import proofs.«164267_j82918638616721_2_alg».proof.Proof.Gen.KernelIdeal.Skeleton
import proofs.«164267_j82918638616721_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The buffer contents of the core when the region is entered: every statement below is made at this parameter. -/
variable (V : (c : Dev nD) → (b : Ref sig .tc) → Buf (Elt F) ((c : Thread nD τ).loc b))

/-! ## Blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether or not it was fetched there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body -/

/-- The whole 512 × 1024 rectangle: the one access of the left input and of the output. -/
abbrev r2_a : Rect S512x1024 := Rect.unit (s := S512x1024) ![0, 0] S512x1024.size inb_S512x1024_S512x1024_0_0
/-- The whole 1024 × 1024 rectangle: the one access of the right input. -/
abbrev r2_b : Rect S1024x1024 := Rect.unit (s := S1024x1024) ![0, 0] S1024x1024.size inb_S1024x1024_S1024x1024_0_0

/-- The output's staging buffer after the body: its one store, of the product of the two loaded blocks. -/
def out2_2 (x0 : Vec F S512x1024 .bf16) (x1 : Vec F S1024x1024 .f32) : Vec F S512x1024 .f32 :=
  View.canon [⟨r2_a, k2_pay1 (View.ld x0 r2_a) (View.ld x1 r2_b)⟩]

/-- The one store covers the buffer. -/
theorem cover2_2 (p0 : Vec F S512x1024 .f32) (y : S512x1024.Idx) :
    ∃ pc ∈ ([⟨r2_a, p0⟩] : List (View.Piece (Elt F) S512x1024 .f32)), y ∈ pc.1.set :=
  View.cover_of_tiled [⟨r2_a, p0⟩] S512x1024.size (by rfl) y

set_option maxHeartbeats 1000000 in
/-- The body on whole staging buffers, the inputs at x0 and x1 and the output at anything, runs to the continuation
    with the inputs as they were and the output at out2_2 x0 x1. -/
theorem sound_kernel2 (c : Dev nD) (E : Set ℕ) (i : grid2.Coords)
    (arg1 : Memref sig .tc .vmem S512x1024 .bf16) (harg1 : arg1.IsWhole) (arg2 : Memref sig .tc .vmem S1024x1024 .f32) (harg2 : arg2.IsWhole)
    (arg3 : Memref sig .tc .vmem S512x1024 .f32) (harg3 : arg3.IsWhole)
    (x0 : Vec F S512x1024 .bf16) (x1 : Vec F S1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__outproj_kernel i arg1 harg1 arg2 harg2 arg3 harg3) K := by
  simp only [cc2__outproj_kernel_eq_skeleton]; unfold cc2__outproj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The proof data -/

/-- Pipeline 2's proof data on core c: arrays as found; after the body each input's buffer at its block and the
    output's at out2_2 of the input blocks; the invariant is the untouched scoped rest and generator register;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Att

end
-- ==== Proof.Region1Shares.lean ====
/-
  The second region's three input windows read one array. At the region's entry the core holds that array whole, at
  the full share; the pipeline wants one points-to per window. The full share is cut into a half, a half of the
  remaining half, and the remainder — three disjoint shares that compose to the full share — one per input window;
  the output window's array is held at the full share. At the exit the three pieces (their contents unchanged: input
  windows are only read) are joined back, and the output array is at what the write-backs left.
-/
import proofs.«164267_j82918638616721_2_alg».proof.Proof.Region1
import proofs.«164267_j82918638616721_2_alg».proof.Proof.LibShareDeal

set_option maxRecDepth 16384

noncomputable section

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the region's arrays are two: the projected array and the context array. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v1) ↦{fullShare} W main_v1) ∗ (((c : Thread nD τ).loc main_v2) ↦{fullShare} W main_v2)) := by
  unfold Pipeline.arrBufs
  exact bigSep_eq_bigSepL_of_eq [main_v1, main_v2] (by decide) (by decide) _

/-- The pipeline's arrays, window by window, at the shares of the proof data. -/
theorem arrays1_eq (c : Dev nD) (Fw : (w : Fin cfg1.W) → Buf (Elt F) ((cfg1.win w).arr.view.loc (c : Thread nD τ))) :
    ((dat1 V c).arrays Fw : sProp 𝕄)
      = iprop((((c : Thread nD τ).loc main_v1) ↦{shareTokN fullShare 0} Fw 0) ∗ (((c : Thread nD τ).loc main_v1) ↦{shareTokN fullShare 1} Fw 1)
          ∗ (((c : Thread nD τ).loc main_v1) ↦{shareDrop fullShare 2} Fw 2) ∗ (((c : Thread nD τ).loc main_v2) ↦{fullShare} Fw 3)) := by
  have e : ((dat1 V c).arrays Fw : sProp 𝕄) = bigSep Finset.univ fun w : Fin cfg1.W =>
      (((c : Thread nD τ).loc (Pipeline.arrRef spec1 w)) ↦{(dat1 V c).share w} Fw w : sProp 𝕄) := by
    unfold Pipeline.Dat.arrays
    exact bigSep_congr fun w _ => by rw [(arr_whole1 w).set_eq_univ]
  rw [e, bigSep_W1]
  rfl

/-- Entry: the core's unscoped buffers at contents V are the pipeline's arrays at the entry contents — the projected
    array's full share cut into the three input windows' shares — and the unscoped rest. -/
theorem entry1 (c : Dev nD) :
    (unscopedBufs c (V c) : sProp 𝕄) ⊢ iprop((dat1 V c).arrays ((dat1 V c).arrAt · 0)
      ∗ Pipeline.unscopedRest (Ix := Unit) (Name := ℕ) (U := UR sig nD τ) (Lvl := ℕ) spec1 c (V c)) := by
  have hs : (unscopedBufs c (V c) : sProp 𝕄) = iprop((Pipeline.arrBufs spec1 c (V c) : sProp 𝕄)
      ∗ Pipeline.unscopedRest (Ix := Unit) (Name := ℕ) (U := UR sig nD τ) (Lvl := ℕ) spec1 c (V c)) :=
    Pipeline.unscopedBufs_split₀ cfgs 1 winFacts₀1.arr_unscoped c (V c)
  rw [hs]
  refine sep_mono ?_ .rfl
  rw [arrBufs1_eq, arrays1_eq]
  show iprop((((c : Thread nD τ).loc main_v1) ↦{fullShare} V c main_v1) ∗ (((c : Thread nD τ).loc main_v2) ↦{fullShare} V c main_v2))
    ⊢ (iprop((((c : Thread nD τ).loc main_v1) ↦{shareTokN fullShare 0} V c main_v1) ∗ (((c : Thread nD τ).loc main_v1) ↦{shareTokN fullShare 1} V c main_v1)
          ∗ (((c : Thread nD τ).loc main_v1) ↦{shareDrop fullShare 2} V c main_v1) ∗ (((c : Thread nD τ).loc main_v2) ↦{fullShare} V c main_v2)) : sProp 𝕄)
  exact (sep_mono ((Cert.Lib.pointsTo_cut fullShare 0).1.trans (sep_mono .rfl (Cert.Lib.pointsTo_cut fullShare 1).1)) .rfl).trans
    (sep_assoc.1.trans (sep_mono .rfl sep_assoc.1))

/-- Exit: the pipeline's arrays at what it leaves — the three pieces of the projected array, unchanged, joined back to
    the full share; the context array at its final contents — and the unscoped rest are the core's unscoped buffers at
    any contents W' that have the context array there and agree with V elsewhere. -/
theorem exit1 (c : Dev nD) (W' : (b : Ref sig .tc) → Buf (Elt F) ((c : Thread nD τ).loc b))
    (hv2 : W' main_v2 = (dat1 V c).arrAt 3 cfg1.N) (hrest : ∀ b, b ≠ main_v2 → W' b = V c b) :
    iprop((dat1 V c).arrays ((dat1 V c).arrAt · cfg1.N)
      ∗ Pipeline.unscopedRest (Ix := Unit) (Name := ℕ) (U := UR sig nD τ) (Lvl := ℕ) spec1 c (V c)) ⊢ (unscopedBufs c W' : sProp 𝕄) := by
  have hs : (unscopedBufs c W' : sProp 𝕄) = iprop((Pipeline.arrBufs spec1 c W' : sProp 𝕄)
      ∗ Pipeline.unscopedRest (Ix := Unit) (Name := ℕ) (U := UR sig nD τ) (Lvl := ℕ) spec1 c W') :=
    Pipeline.unscopedBufs_split₀ cfgs 1 winFacts₀1.arr_unscoped c W'
  rw [hs, arrBufs1_eq, arrays1_eq]
  have hr : (Pipeline.unscopedRest (Ix := Unit) (Name := ℕ) (U := UR sig nD τ) (Lvl := ℕ) spec1 c (V c) : sProp 𝕄)
      = Pipeline.unscopedRest (Ix := Unit) (Name := ℕ) (U := UR sig nD τ) (Lvl := ℕ) spec1 c W' := by
    unfold Pipeline.unscopedRest
    exact bigSep_congr fun b hb => by
      rw [hrest b (fun e => (Finset.mem_sdiff.mp hb).2 (e ▸ Finset.mem_image.mpr ⟨3, Finset.mem_univ _, rfl⟩))]
  rw [hr, hrest main_v1 (by decide), hv2, (dat1 V c).arrAt_in 0 rfl cfg1.N, (dat1 V c).arrAt_in 1 rfl cfg1.N, (dat1 V c).arrAt_in 2 rfl cfg1.N]
  refine sep_mono ?_ .rfl
  show (iprop((((c : Thread nD τ).loc main_v1) ↦{shareTokN fullShare 0} V c main_v1) ∗ (((c : Thread nD τ).loc main_v1) ↦{shareTokN fullShare 1} V c main_v1)
          ∗ (((c : Thread nD τ).loc main_v1) ↦{shareDrop fullShare 2} V c main_v1) ∗ (((c : Thread nD τ).loc main_v2) ↦{fullShare} (dat1 V c).arrAt 3 cfg1.N)) : sProp 𝕄)
    ⊢ iprop((((c : Thread nD τ).loc main_v1) ↦{fullShare} V c main_v1) ∗ (((c : Thread nD τ).loc main_v2) ↦{fullShare} (dat1 V c).arrAt 3 cfg1.N))
  exact (sep_mono .rfl sep_assoc.2).trans (sep_assoc.2.trans
    (sep_mono ((sep_mono .rfl (Cert.Lib.pointsTo_cut fullShare 1).2).trans (Cert.Lib.pointsTo_cut fullShare 0).2) .rfl))

end Cert.KernelIdeal.Att

end
-- ==== Proof.Run.lean ====
/-
  The whole program as a sequence of five segments — a reshape on the host, the three kernel regions, a reshape on the
  host — at any float instance: the contents of every buffer at each boundary (each region's arrays at what its
  write-backs leave, everything else as entered), the regions as segments of the launch, and the run itself: every
  weakly fair execution terminates, faults nowhere, and ends with every unscoped buffer at the last boundary's
  contents. The argument arrays are read by input windows or bypassed, never written, so they end as launched; the
  result buffer ends at the reshape of the third region's output array.

  In the second region three input windows read one array; the array's full share is cut into two halves and a
  remainder on entry and joined on exit.
-/
import proofs.«164267_j82918638616721_2_alg».proof.Proof.Region0
import proofs.«164267_j82918638616721_2_alg».proof.Proof.Region1
import proofs.«164267_j82918638616721_2_alg».proof.Proof.Region2
import proofs.«164267_j82918638616721_2_alg».proof.Proof.Region1Shares
import proofs.«164267_j82918638616721_2_alg».proof.Proof.Gen.KernelIdeal.Regions

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first reshape: the first region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its arrays at what the pipeline leaves. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second region: the context array at what the pipeline leaves, everything else as entered (the
    projected array is only read). -/
def W3 (c : Dev nD) : Valuation τ sig (Elt F) :=
  Function.update (W2 m ρ c) (Proc.devRef .tc main_v2) ((dat1 (V2 m ρ) c).arrAt 3 cfg1.N)
theorem W3_v2 (c : Dev nD) : W3 m ρ c (Proc.devRef .tc main_v2) = (dat1 (V2 m ρ) c).arrAt 3 cfg1.N := by
  unfold W3; exact Function.update_self ..
theorem W3_of_ne (c : Dev nD) (b : Ref sig .tc) (hb : b ≠ main_v2) :
    W3 m ρ c (Proc.devRef .tc b) = W2 m ρ c (Proc.devRef .tc b) := by
  unfold W3; exact Function.update_of_ne (StableHlo.devRef_ne_of_ne hb) ..
abbrev V3 : (c : Dev nD) → (b : Ref sig .tc) → Buf (Elt F) ((c : Thread nD τ).loc b) := fun c b => W3 m ρ c b

/-- After the third region. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the last reshape: the end. -/
abbrev W5 : Dev nD → Valuation τ sig (Elt F) := fun c => StableHlo.after hostOps3 (W4 m ρ c)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps3 _ hostOps3_writes (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps3 _ hostOps3_writes (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_writes_sub hostOps0 _ hostOps0_writes (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps3 _ hostOps3_writes (by decide)
    _ = W3 m ρ c (Proc.devRef .tc main_arg2) := (W4_arr m ρ c 1).trans (((dat2 (V3 m ρ) c).arrAt_in 1 rfl _).trans (A_eq2 (V3 m ρ) c 1))
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-! ## The proof data family and what rides along -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything. -/
abbrev L : GSem nD τ sig → Finset Unit := fun _ => ∅
abbrev lv : GSem nD τ sig → Unit → ℕ := fun _ _ => 0
/-- Beside the buffers through every segment: the generator register at some state and the core's dues, at nothing. -/
abbrev R (c : Dev nD) : sProp 𝕄 := iprop((∃ r, prngReg c r) ∗ ∃ W, owes (c : Thread nD τ) (0 : CellTallies nD τ sig Unit) W)
/-- A host stretch as a segment over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 as a segment: entered with every unscoped buffer at the boundary contents before it, left at those after
    it. Its arrays are split out of the unscoped buffers at entry and put back at exit; the generator register
    goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at the boundary contents before it, left at those after
    it. Its arrays are split out of the unscoped buffers at entry and put back at exit; the generator register
    goes into the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment. Its three input windows read the projected array: at entry the array's full share is cut
    into two halves and the remainder, one piece per window; at exit the pieces are joined. The context array is its
    one output. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (unscopedBufs c (V2 m ρ c) : sProp 𝕄) ⊢ iprop((pdats m ρ 1 c).arrays ((pdats m ρ 1 c).arrAt · 0)
        ∗ Pipeline.unscopedRest (Ix := Unit) (Name := ℕ) (U := UR sig nD τ) (Lvl := ℕ) spec1 c (V2 m ρ c)) := entry1 (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
        ∗ Pipeline.unscopedRest (Ix := Unit) (Name := ℕ) (U := UR sig nD τ) (Lvl := ℕ) spec1 c (V2 m ρ c)) ⊢ (unscopedBufs c (V3 m ρ c) : sProp 𝕄) :=
      exit1 (V2 m ρ) c (V3 m ρ c) (W3_v2 m ρ c) (fun b hb => W3_of_ne m ρ c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]

theorem main_run (c : Dev nD) : main (F := F) c = Pipeline.Seg.run (segs m ρ) := (main_chain c).trans (by chain_rfl)

set_option backward.isDefEq.respectTransparency.types false in
/-- Every weakly fair execution of the program from memory m with zero counters terminates, nothing faulting, and in
    every final memory each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Att

end
-- ==== Proof.Spec.lean ====
/-
  Multi-head self-attention over the extended reals, as one function of the three argument arrays.

  The input x is read as a 4096 × 1024 matrix X (row b·2048 + s for batch b and position s). The projection is the
  matrix product Q = X · Wq (4096 × 3072); its columns are laid out as [query | key | value], each 1024 wide and
  split into 16 heads of 64 columns. For a row m of batch b and a column e of head e / 64, the context entry is

      ctx Q (m, e) = Σ_t softmax_t(score m ·) · Q(b·2048 + t, 2048 + e),
      score m t    = (Σ_d Q(m, (e/64)·64 + d) · Q(b·2048 + t, 1024 + (e/64)·64 + d)) · (1/8),

  the softmax being exp(score − row maximum) divided by its row sum, the maximum a fold of max from −∞ over
  the 2048 positions. The result is ctx Q · Wo, read back as 2 × 2048 × 1024.

  One definition, `softCtx`, carries the softmax-weighted sum for a row given as three plain functions; both the
  per-block reading of the attention kernel and the whole-array reading instantiate it.
-/
import Idealize.ShloMosaic.Lib.ValueIdx
import Idealize.ShloMosaic.PureOps.Ideal.Laws

noncomputable section

open scoped BigOperators

namespace Cert.Attn

open Idealize.ShloMosaic Idealize.ShloMosaic.ValueIdx

/-- The scale 1/8, kept as the float word both programs print. -/
def c8 : EReal := Ideal.ofBits .f32 0x3E000000#32
/-- −∞, kept as the float word both programs print. -/
def ninf : EReal := Ideal.ofBits .f32 0xFF800000#32

/-- Scaled score of one query row against key row t. -/
def sc {n : ℕ} (qf : Fin 64 → EReal) (kf : Fin n → Fin 64 → EReal) (t : Fin n) : EReal :=
  (∑ d : Fin 64, qf d * kf t d) * c8
/-- The row maximum: max folded from −∞ over all key rows. -/
def mx {n : ℕ} (qf : Fin 64 → EReal) (kf : Fin n → Fin 64 → EReal) : EReal :=
  (Finset.univ : Finset (Fin n)).fold max ninf (fun t => sc qf kf t)
/-- Exponential of a score below the row maximum. -/
def pe {n : ℕ} (qf : Fin 64 → EReal) (kf : Fin n → Fin 64 → EReal) (t : Fin n) : EReal :=
  Ideal.exp (sc qf kf t - mx qf kf)
/-- The softmax-weighted sum of the values vf along one query row. -/
def softCtx {n : ℕ} (qf : Fin 64 → EReal) (kf : Fin n → Fin 64 → EReal) (vf : Fin n → EReal) : EReal :=
  ∑ t : Fin n, Ideal.div (pe qf kf t) (∑ t' : Fin n, pe qf kf t') * vf t

/-- Plain matrix product at (i, j). -/
def mm {M K N : ℕ} (l : (⟨2, ![M, K]⟩ : Shape).Idx → EReal) (r : (⟨2, ![K, N]⟩ : Shape).Idx → EReal)
    (i : Fin M) (j : Fin N) : EReal := ∑ k : Fin K, l (ix2 i k) * r (ix2 k j)

/-- The matrix product as an array. -/
def mmA {M K N : ℕ} (l : (⟨2, ![M, K]⟩ : Shape).Idx → EReal) (r : (⟨2, ![K, N]⟩ : Shape).Idx → EReal) :
    (⟨2, ![M, N]⟩ : Shape).Idx → EReal := fun j => mm l r (j 0) (j 1)

/-- Column of the 128-wide head-pair block that holds coordinate d of the head that column c belongs to. -/
def hcol (c : Fin 128) (d : Fin 64) : Fin 128 := ⟨(c.val / 64) * 64 + d.val, by have := c.isLt; have := d.isLt; omega⟩

/-- The attention kernel's block: from a 256 × 128 query block and 2048 × 128 key and value blocks (two heads side by
    side), entry (r, c) is the softmax-weighted sum for query row r within the head of column c. -/
def blkCtx (q : (⟨2, ![256, 128]⟩ : Shape).Idx → EReal) (k v : (⟨2, ![2048, 128]⟩ : Shape).Idx → EReal)
    (r : Fin 256) (c : Fin 128) : EReal :=
  softCtx (fun d => q (ix2 r (hcol c d))) (fun t d => k (ix2 t (hcol c d))) (fun t => v (ix2 t c))

/-- Row b·2048 + t of the batch that row m belongs to. -/
def rowb (m : Fin 4096) (t : Fin 2048) : Fin 4096 := ⟨(m.val / 2048) * 2048 + t.val, by have := m.isLt; have := t.isLt; omega⟩
/-- Query column of coordinate d in the head of context column e. -/
def colq (e : Fin 1024) (d : Fin 64) : Fin 3072 := ⟨(e.val / 64) * 64 + d.val, by have := e.isLt; have := d.isLt; omega⟩
/-- Key column of coordinate d in the head of context column e. -/
def colk (e : Fin 1024) (d : Fin 64) : Fin 3072 := ⟨1024 + (e.val / 64) * 64 + d.val, by have := e.isLt; have := d.isLt; omega⟩
/-- Value column for context column e. -/
def colv (e : Fin 1024) : Fin 3072 := ⟨2048 + e.val, by have := e.isLt; omega⟩

/-- The context matrix (4096 × 1024) from the projected matrix Q (4096 × 3072), at (m, e). -/
def ctx (Q : (⟨2, ![4096, 3072]⟩ : Shape).Idx → EReal) (m : Fin 4096) (e : Fin 1024) : EReal :=
  softCtx (fun d => Q (ix2 m (colq e d))) (fun t d => Q (ix2 (rowb m t) (colk e d))) (fun t => Q (ix2 (rowb m t) (colv e)))

/-- The context matrix as an array. -/
def ctxA (Q : (⟨2, ![4096, 3072]⟩ : Shape).Idx → EReal) : (⟨2, ![4096, 1024]⟩ : Shape).Idx → EReal :=
  fun j => ctx Q (j 0) (j 1)

/-- x read as a 4096 × 1024 matrix: row m is batch m / 2048, position m % 2048. -/
def X2 (x : (⟨3, ![2, 2048, 1024]⟩ : Shape).Idx → EReal) : (⟨2, ![4096, 1024]⟩ : Shape).Idx → EReal :=
  fun j => x (ix3 (⟨(j 0).val / 2048, by have := (j 0).isLt; simp only [Matrix.cons_val_zero] at this; omega⟩ : Fin 2)
    (⟨(j 0).val % 2048, Nat.mod_lt _ (by norm_num)⟩ : Fin 2048) (j 1))

/-- The result as a 4096 × 1024 matrix. -/
def out2 (x : (⟨3, ![2, 2048, 1024]⟩ : Shape).Idx → EReal) (wq : (⟨2, ![1024, 3072]⟩ : Shape).Idx → EReal)
    (wo : (⟨2, ![1024, 1024]⟩ : Shape).Idx → EReal) : (⟨2, ![4096, 1024]⟩ : Shape).Idx → EReal :=
  mmA (ctxA (mmA (X2 x) wq)) wo

/-- Row of the 4096-row matrices for batch b and position s. -/
def row (b : Fin 2) (s : Fin 2048) : Fin 4096 := ⟨b.val * 2048 + s.val, by have := b.isLt; have := s.isLt; omega⟩

/-- The result array, 2 × 2048 × 1024: entry (b, s, f) is entry (b·2048 + s, f) of the result matrix. -/
def G (x : (⟨3, ![2, 2048, 1024]⟩ : Shape).Idx → EReal) (wq : (⟨2, ![1024, 3072]⟩ : Shape).Idx → EReal)
    (wo : (⟨2, ![1024, 1024]⟩ : Shape).Idx → EReal) : (⟨3, ![2, 2048, 1024]⟩ : Shape).Idx → EReal :=
  fun i => out2 x wq wo (ix2 (row (i 0) (i 1)) (i 2))

end Cert.Attn

end
-- ==== Proof.LibPlainMatmul.lean ====
/-
  A plain matrix product read at one entry.

  The matrix unit's contraction with dimension numbers "rows × contraction times contraction × columns"
  (left contracting axis 1, right contracting axis 0, no batch axis), accumulated into the zero splat, is at the
  ideal values the textbook product: entry (i, j) is the sum over the contraction coordinate k of
  l (i, k) · r (k, j).  The statement is over any dimension record whose six lists are those of the plain
  product, so it applies to a printed record whatever name it carries.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

/-- Entry (i, j) of an M×K by K×N `tpu.matmul` into the zero accumulator, at the ideal values: the sum over the
    K contraction coordinates of the left operand's row entry times the right operand's column entry. -/
theorem matmul_zero_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.PlainMatmul

end
-- ==== Proof.LibKeptColumn.lean ====
/-
  Two layout facts about a column kept after a row reduction (a sum with the reduced axis kept as a unit axis):
  a vector of length a cast to an [a, 1] column, and an [a, 1] column spread along the rows of an [a, b] array, each read
  at an index.
-/
import Idealize.ShloMosaic.Lib.Pipeline.Value
import Idealize.ShloMosaic.Lib.ValueIdx

noncomputable section

namespace Idealize.ShloMosaic.KeptColumn

open Idealize.ShloMosaic Idealize.ShloMosaic.ValueIdx

variable {α : Type}

/-- An `[a]` array cast to an `[a, 1]` column reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`: the unit axis is read at 0,
    the row axis at `p` (when `a = 1` the only row is row 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.KeptColumn

end
-- ==== Proof.LibSumsAtIndex.lean ====
/-
  Reductions and re-laid arrays read at an index given by coordinates, at the ideal values.

  A sum along the columns of an [a, b] array is, at row r, the sum over d of the entries (r, d); a sum along its rows is,
  at column j, the sum over r of the entries (r, j) (for the vector unit's reduction, which starts from nothing, and for
  the host's, which starts from an initial value). An [a, 1] column read as a vector of length a, and an [a, 1, b] array
  read as an [a, b] matrix, keep every element at its row-major position. A sum over the indices of a vector is the sum
  over its coordinate.
-/
import Idealize.ShloMosaic.Lib.Pipeline.Value
import Idealize.ShloMosaic.Lib.ValueIdx
import Idealize.ShloMosaic.PureOps.Ideal.Laws

noncomputable section

open scoped BigOperators

namespace Idealize.ShloMosaic.SumsAtIndex

open Idealize.ShloMosaic Idealize.ShloMosaic.ValueIdx

/-- The vector unit's sum along axis 1 of an [a, b] array, at row r: the sum of row r. -/
theorem rowsum_apply {a b : ℕ} (src : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ) (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

/-- The vector unit's sum along axis 0 of an [a, b] array, at column j: the sum of column j. -/
theorem colsum_apply {a b : ℕ} (src : FVec Ideal ⟨2, ![a, b]⟩ .f32) (acc : BitVec FTy.f32.bits)
    (h : (⟨2, ![a, b]⟩ : Shape).Reduces [0] ⟨1, ![b]⟩) (hφ : FKind.Formats .f32) (hacc : acc = FKind.add.neutral .f32 hφ) (j : Fin b) :
    multiReduction .add [0] ⟨1, ![b]⟩ src acc h hφ hacc (ix1 j) = ∑ r : Fin a, src (ix2 r j) := by
  refine (Ideal.multiReduction_add_single src acc h hφ hacc (ix1 j)).trans ?_
  refine Finset.sum_congr rfl fun r _ => congrArg src (funext fun ax => Fin.ext ?_)
  match ax with
  | ⟨0, _⟩ => rfl
  | ⟨1, _⟩ => rfl

/-- The host's sum along axis 0 of an [a, b] array from an initial value, at column j. -/
theorem hostColsum_apply {a b : ℕ} (x : (⟨2, ![a, b]⟩ : Shape).Idx → EReal) (init : EReal)
    (h' : (⟨2, ![a, b]⟩ : Shape).ReducesTo [0] ⟨1, ![b]⟩) (h : (⟨2, ![a, b]⟩ : Shape).Reduces [0] ⟨1, ![b]⟩) (j : Fin b) :
    Ideal.hostReduceAdd h' x init (ix1 j) = init + ∑ r : Fin a, x (ix2 r j) := by
  refine (Ideal.hostReduceAdd_single h' h x init (ix1 j)).trans ?_
  refine congrArg (init + ·) (Finset.sum_congr rfl fun r _ => congrArg x (funext fun ax => Fin.ext ?_))
  match ax with
  | ⟨0, _⟩ => rfl
  | ⟨1, _⟩ => rfl

/-- A sum over the indices of a vector of length a is the sum over its coordinate. -/
theorem sum_idx1 {M : Type*} [AddCommMonoid M] {a : ℕ} (f : (⟨1, ![a]⟩ : Shape).Idx → M) : ∑ i, f i = ∑ k : Fin a, f (ix1 k) := by
  let e : Fin a ≃ (⟨1, ![a]⟩ : Shape).Idx :=
    { toFun := fun k => ix1 k, invFun := fun i => i 0, left_inv := fun _ => rfl, right_inv := fun i => (eq_ix1 i).symm }
  exact (Equiv.sum_comp e f).symm

/-- The host's sum of a whole vector of length a from an initial value. -/
theorem hostTotal_apply {a : ℕ} (x : (⟨1, ![a]⟩ : Shape).Idx → EReal) (init : EReal)
    (h' : (⟨1, ![a]⟩ : Shape).ReducesTo [0] ⟨0, ![]⟩) (i : (⟨0, ![]⟩ : Shape).Idx) :
    Ideal.hostReduceAdd h' x init i = init + ∑ k : Fin a, x (ix1 k) := by
  rw [Ideal.hostReduceAdd_total h' (fun b => b.elim0) x init i, sum_idx1]

/-- An [a, 1] column read as a vector: entry i is the column's entry (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An [a, 1, b] array read as an [a, b] matrix: entry (i, j) is the array's entry (i, 0, j). -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Idealize.ShloMosaic.SumsAtIndex

end
-- ==== Proof.LibSoftmaxStages.lean ====
/-
  The stages of a row softmax, and two re-laid arrays, read at an index given by coordinates, at the ideal values.

  For an [a, b] array S: the maximum along each row is the fold of max from the accumulator's value over the row;
  a row reduction kept as an [a, 1] column and spread back along the rows reads, at (r, t), the reduction of row r;
  so the exponential of S below its row maxima is, at (r, t), exp (S (r, t) − max over row r), and an array divided
  by its row sums is, at (r, t), its entry over the sum of row r.  An [a, b] matrix viewed with two leading unit
  axes, and back, keeps every element at its row-major position.  Nothing here names a particular program.
-/
import Idealize.ShloMosaic.Lib.Pipeline.Value
import Idealize.ShloMosaic.Lib.ValueIdx
import Idealize.ShloMosaic.PureOps.Ideal.Laws
import proofs.«164267_j82918638616721_2_alg».proof.Proof.LibKeptColumn
import proofs.«164267_j82918638616721_2_alg».proof.Proof.LibSumsAtIndex

noncomputable section

open scoped BigOperators

namespace Idealize.ShloMosaic.SoftmaxStages

open Idealize.ShloMosaic Idealize.ShloMosaic.ValueIdx

/-- The vector unit's maximum along axis 1 of an [a, b] array, at row r: the fold of max from the accumulator's
    value over the entries of row r. -/
theorem rowmax_apply {a b : ℕ} (src : FVec Ideal ⟨2, ![a, b]⟩ .f32) (acc : BitVec FTy.f32.bits)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun d => src (ix2 r d)) := by
  refine (Ideal.multiReduction_maximumf_single src acc h hφ hacc (ix1 r)).trans ?_
  have hf : (src ∘ h.lift (ix1 r)) = fun d : Fin b => src (ix2 r d) :=
    funext fun d => congrArg src (funext fun ax => Fin.ext (by
      match ax with
      | ⟨0, _⟩ => rfl
      | ⟨1, _⟩ => rfl))
  exact congrArg (fun f => Finset.fold max (Ideal.ofBits .f32 acc) f (Finset.univ : Finset (Fin b))) hf

/-- A vector of length a kept as an [a, 1] column and spread along the rows of an [a, b] array reads, at (r, t),
    the vector's entry r. -/
theorem kept_apply {α : Type} {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (r : Fin a) (t : Fin b) :
    broadcastTo ⟨2, ![a, b]⟩ (shapeCast ⟨2, ![a, 1]⟩ v hc) hb (ix2 r t) = v (ix1 r) :=
  (KeptColumn.broadcastTo_a1_ab_apply _ hb r t).trans (KeptColumn.shapeCast_a_a1_apply v hc r 0)

/-- The exponentials of an [a, b] array below its row maxima, at (r, t). -/
theorem exp_sub_rowmax_apply {a b : ℕ} (S : FVec Ideal ⟨2, ![a, b]⟩ .f32) (acc : BitVec FTy.f32.bits)
    (hr : (⟨2, ![a, b]⟩ : Shape).Reduces [1] ⟨1, ![a]⟩) (hφ : FKind.Formats .f32)
    (hacc : acc = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (t : Fin b) :
    exp (subf S (broadcastTo ⟨2, ![a, b]⟩ (shapeCast ⟨2, ![a, 1]⟩
        (multiReduction .maximumf [1] ⟨1, ![a]⟩ S acc hr hφ hacc) hc) hb)) (ix2 r t)
      = Ideal.exp (S (ix2 r t) - (Finset.univ : Finset (Fin b)).fold max (Ideal.ofBits .f32 acc) (fun d => S (ix2 r d))) :=
  congrArg (fun m => Ideal.exp (S (ix2 r t) - m))
    ((kept_apply _ hc hb r t).trans (rowmax_apply S acc hr hφ hacc r))

/-- An [a, b] array divided by its row sums, at (r, t). -/
theorem div_rowsum_apply {a b : ℕ} (E : FVec Ideal ⟨2, ![a, b]⟩ .f32) (acc : BitVec FTy.f32.bits)
    (hr : (⟨2, ![a, b]⟩ : Shape).Reduces [1] ⟨1, ![a]⟩) (hφ : FKind.Formats .f32)
    (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (t : Fin b) :
    divf E (broadcastTo ⟨2, ![a, b]⟩ (shapeCast ⟨2, ![a, 1]⟩
        (multiReduction .add [1] ⟨1, ![a]⟩ E acc hr hφ hacc) hc) hb) (ix2 r t)
      = Ideal.div (E (ix2 r t)) (∑ d : Fin b, E (ix2 r d)) :=
  congrArg (fun m => Ideal.div (E (ix2 r t)) m)
    ((kept_apply _ hc hb r t).trans (SumsAtIndex.rowsum_apply E acc hr hφ hacc r))

/-- A [1, 1, a, b] array read as an [a, b] matrix: entry (i, j) is the array's entry (0, 0, i, j). -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] matrix viewed as [1, 1, a, b] reads, at (u, u', i, j), the matrix's entry (i, j). -/
theorem shapeCast_ab_11ab_apply {α : Type} {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_two, Shape.rowMajor_val_four]
    show i.val * b + j.val = ((u.val * 1 + u'.val) * a + i.val) * b + j.val
    rw [hu, hu']
    simp only [Nat.zero_mul, Nat.zero_add])

end Idealize.ShloMosaic.SoftmaxStages

end
-- ==== Proof.Payloads.lean ====
/-
  The three kernels' stored values read at an index, at the ideal values.

  The projection kernels store a plain matrix product: changes of float format are the identity on the extended
  reals and the accumulator is the zero splat, so entry (r, c) is the sum over k of l (r, k) · w (k, c).

  The attention kernel works on a pair of heads laid side by side, 64 columns each.  For one head, with a 256 × 64
  query slice q, a 2048 × 64 key slice k and a 2048 × 64 value slice v, the stored entry (r, e) is

      Σ_t  exp (s r t − max_t' s r t') / (Σ_t' exp (s r t' − max_t'' s r t''))  ·  v (t, e),
      s r t = (Σ_d q (r, d) · k (t, d)) · (1/8),

  that is the softmax-weighted sum of column e of v along query row r.  The two heads' 256 × 64 results are joined
  along the columns: column c of the 256 × 128 result belongs to head c / 64.
-/
import Idealize.ShloMosaic.Lib.ValueIdx
import Idealize.ShloMosaic.Lib.ValueLayout
import Idealize.ShloMosaic.Lib.Pipeline.Value
import Idealize.ShloMosaic.PureOps.Ideal.Laws
import proofs.«164267_j82918638616721_2_alg».proof.Proof.Gen.KernelIdeal.Skeleton
import proofs.«164267_j82918638616721_2_alg».proof.Proof.Spec
import proofs.«164267_j82918638616721_2_alg».proof.Proof.LibPlainMatmul
import proofs.«164267_j82918638616721_2_alg».proof.Proof.LibSoftmaxStages

noncomputable section

open scoped BigOperators

namespace Cert.Attn.Pay

open Cert.KernelIdeal Cert.KernelIdeal.Gen Idealize.ShloMosaic Idealize.ShloMosaic.ValueIdx

/-- A change of float format is the identity on the extended reals. -/
theorem truncf_id {s : Shape} {φ ψ : FTy} (x : FVec Ideal s φ) (h : ψ.bits < φ.bits) :
    truncf (F := Ideal) ψ x h = x := rfl

/-- The query/key/value projection kernel's stored value at (r, c): the matrix product of the two loaded blocks. -/
theorem pay0_apply (v0 : Vec Ideal S512x1024 .f32) (v3 : Vec Ideal S1024x1024 .f32) (r : Fin 512) (c : Fin 1024) :
    k0_pay1 (F := Ideal) v0 v3 (ix2 r c) = Cert.Attn.mm v0 v3 r c := by
  unfold k0_pay1
  rw [truncf_id, truncf_id, truncf_id, shapeCast_self]
  exact PlainMatmul.matmul_zero_apply dot_S512x1024_S1024x1024_S512x1024_1_0_0_1_n_n rfl rfl rfl rfl rfl rfl none
    (φ₁ := .f32) (φ₂ := .f32) v0 v3 r c

/-- The output projection kernel's stored value at (r, c): the matrix product of the two loaded blocks. -/
theorem pay2_apply (v0 : Vec Ideal S512x1024 .bf16) (v2 : Vec Ideal S1024x1024 .f32) (r : Fin 512) (c : Fin 1024) :
    k2_pay1 (F := Ideal) v0 v2 (ix2 r c) = Cert.Attn.mm v0 v2 r c := by
  unfold k2_pay1
  rw [truncf_id, shapeCast_self]
  exact PlainMatmul.matmul_zero_apply dot_S512x1024_S1024x1024_S512x1024_1_0_0_1_n_n rfl rfl rfl rfl rfl rfl none
    (φ₁ := .bf16) (φ₂ := .f32) v0 v2 r c

/-! ## One head, over variables -/

/-- The scaled scores of a 256 × 64 query slice against a 2048 × 64 key slice: the product of the queries with the
    transposed keys, into the zero splat, times the splat of the scale word. -/
def scores (q : FVec Ideal S256x64 .bf16) (k : FVec Ideal S2048x64 .bf16) : FVec Ideal S256x2048 .f32 :=
  mulf (matmul dot_S256x64_S64x2048_S256x2048_1_0_0_1_n_n none q
      (transpose S64x2048 [1, 0] k transposes_S2048x64_p1_0_S64x2048) (constant S256x2048 .f32 0x00000000#32))
    (broadcast S256x2048 (Scalar.ofBits .f32 0x3E000000#32))

/-- Entry (r, t) of the scores: the scaled inner product of query row r with key row t. -/
theorem scores_apply (q : FVec Ideal S256x64 .bf16) (k : FVec Ideal S2048x64 .bf16) (r : Fin 256) (t : Fin 2048) :
    scores q k (ix2 r t) = sc (fun d => q (ix2 r d)) (fun t d => k (ix2 t d)) t := by
  have hm := PlainMatmul.matmul_zero_apply dot_S256x64_S64x2048_S256x2048_1_0_0_1_n_n rfl rfl rfl rfl rfl rfl none q
    (transpose S64x2048 [1, 0] k transposes_S2048x64_p1_0_S64x2048) r t
  have ht : ∀ d : Fin 64, transpose S64x2048 [1, 0] k transposes_S2048x64_p1_0_S64x2048 (ix2 d t) = k (ix2 t d) :=
    fun d => transpose_apply [1, 0] k transposes_S2048x64_p1_0_S64x2048 (ix2 d t) (ix2 t d) (fun b => by
      match b with
      | ⟨0, _⟩ => rfl
      | ⟨1, _⟩ => rfl)
  show matmul dot_S256x64_S64x2048_S256x2048_1_0_0_1_n_n none q
      (transpose S64x2048 [1, 0] k transposes_S2048x64_p1_0_S64x2048) (constant S256x2048 .f32 0x00000000#32) (ix2 r t)
      * Ideal.ofBits .f32 0x3E000000#32 = _
  rw [hm]
  simp only [ht]
  rfl

/-- The exponentials of a 256 × 2048 array below its row maxima, the maximum folded from −∞. -/
def expo (S : FVec Ideal S256x2048 .f32) : FVec Ideal S256x2048 .f32 :=
  exp (subf S (broadcastTo S256x2048 (shapeCast S256x1
    (multiReduction .maximumf [1] S256 S 0xFF800000#32 reduces_S256x2048_S256 (.inl rfl) rfl)
    shapeCasts_S256_S256x1) broadcasts_S256x1_S256x2048))

theorem expo_apply (S : FVec Ideal S256x2048 .f32) (r : Fin 256) (t : Fin 2048) :
    expo S (ix2 r t)
      = Ideal.exp (S (ix2 r t) - (Finset.univ : Finset (Fin 2048)).fold max ninf (fun d => S (ix2 r d))) :=
  SoftmaxStages.exp_sub_rowmax_apply S 0xFF800000#32 reduces_S256x2048_S256 (.inl rfl) rfl
    shapeCasts_S256_S256x1 broadcasts_S256x1_S256x2048 r t

/-- The softmax weights: the exponentials divided by their row sums. -/
def probs (S : FVec Ideal S256x2048 .f32) : FVec Ideal S256x2048 .bf16 :=
  truncf .bf16 (divf (expo S) (broadcastTo S256x2048 (shapeCast S256x1
    (multiReduction .add [1] S256 (expo S) 0x00000000#32 reduces_S256x2048_S256 (.inl rfl) rfl)
    shapeCasts_S256_S256x1) broadcasts_S256x1_S256x2048)) bitsLt_bf16_f32

theorem probs_apply (S : FVec Ideal S256x2048 .f32) (r : Fin 256) (t : Fin 2048) :
    probs S (ix2 r t) = Ideal.div (expo S (ix2 r t)) (∑ d : Fin 2048, expo S (ix2 r d)) :=
  SoftmaxStages.div_rowsum_apply (expo S) 0x00000000#32 reduces_S256x2048_S256 (.inl rfl) rfl
    shapeCasts_S256_S256x1 broadcasts_S256x1_S256x2048 r t

/-- The weights applied to a 2048 × 64 value slice. -/
def weighted (P : FVec Ideal S256x2048 .bf16) (v : FVec Ideal S2048x64 .bf16) : FVec Ideal S256x64 .bf16 :=
  truncf .bf16 (matmul dot_S256x2048_S2048x64_S256x64_1_0_0_1_n_n none P v (constant S256x64 .f32 0x00000000#32))
    bitsLt_bf16_f32

theorem weighted_apply (P : FVec Ideal S256x2048 .bf16) (v : FVec Ideal S2048x64 .bf16) (r : Fin 256) (e : Fin 64) :
    weighted P v (ix2 r e) = ∑ t : Fin 2048, P (ix2 r t) * v (ix2 t e) :=
  PlainMatmul.matmul_zero_apply dot_S256x2048_S2048x64_S256x64_1_0_0_1_n_n rfl rfl rfl rfl rfl rfl none P v r e

/-- One head: entry (r, e) is the softmax-weighted sum of column e of the values along query row r. -/
theorem head_apply (q : FVec Ideal S256x64 .bf16) (k v : FVec Ideal S2048x64 .bf16) (r : Fin 256) (e : Fin 64) :
    weighted (probs (scores q k)) v (ix2 r e)
      = softCtx (fun d => q (ix2 r d)) (fun t d => k (ix2 t d)) (fun t => v (ix2 t e)) := by
  rw [weighted_apply]
  unfold softCtx
  refine Finset.sum_congr rfl fun t _ => ?_
  rw [probs_apply]
  simp only [expo_apply, scores_apply]
  rfl

/-! ## The two heads side by side -/

/-- A 64-column slice at column offset o of an n × 128 array reads, at (r, d), the array at (r, o + d). -/
theorem slice_apply {n : ℕ} (o : ℕ) (a : FVec Ideal ⟨2, ![n, 128]⟩ .bf16)
    (h : (⟨2, ![n, 128]⟩ : Shape).Slices ![0, o] ⟨2, ![n, 64]⟩) (r : Fin n) (d : Fin 64) (c : Fin 128)
    (hc : c.val = o + d.val) :
    extractStridedSlice ⟨2, ![n, 64]⟩ ![0, o] a h (ix2 r d) = a (ix2 r c) :=
  extractStridedSlice_apply ![0, o] a h (ix2 r d) (ix2 r c) (fun ax => by
    match ax with
    | ⟨0, _⟩ => show r.val = 0 + r.val; omega
    | ⟨1, _⟩ => show c.val = o + d.val; exact hc)

/-- The head whose 64 columns start at column o of the 128-wide blocks: its entry (r, e) is the block entry of the
    specification at (r, c) for the column c = o + e of that head. -/
theorem half_apply (o : ℕ) (hq : S256x128.Slices ![0, o] S256x64) (hk : S2048x128.Slices ![0, o] S2048x64)
    (a0 : FVec Ideal S256x128 .bf16) (a2 a4 : FVec Ideal S2048x128 .bf16) (r : Fin 256) (c : Fin 128) (e : Fin 64)
    (hc : c.val = o + e.val) (ho : (c.val / 64) * 64 = o) :
    weighted (probs (scores (extractStridedSlice S256x64 ![0, o] a0 hq) (extractStridedSlice S2048x64 ![0, o] a2 hk)))
        (extractStridedSlice S2048x64 ![0, o] a4 hk) (ix2 r e)
      = blkCtx a0 a2 a4 r c := by
  rw [head_apply]
  unfold blkCtx
  have e1 : (fun d : Fin 64 => extractStridedSlice S256x64 ![0, o] a0 hq (ix2 r d)) = fun d => a0 (ix2 r (hcol c d)) :=
    funext fun d => slice_apply o a0 hq r d (hcol c d) (by show (c.val / 64) * 64 + d.val = o + d.val; omega)
  have e2 : (fun (t : Fin 2048) (d : Fin 64) => extractStridedSlice S2048x64 ![0, o] a2 hk (ix2 t d))
      = fun t d => a2 (ix2 t (hcol c d)) :=
    funext fun t => funext fun d => slice_apply o a2 hk t d (hcol c d) (by show (c.val / 64) * 64 + d.val = o + d.val; omega)
  have e3 : (fun t : Fin 2048 => extractStridedSlice S2048x64 ![0, o] a4 hk (ix2 t e)) = fun t => a4 (ix2 t c) :=
    funext fun t => slice_apply o a4 hk t e c hc
  rw [e1, e2, e3]

/-- The two heads' results joined along the columns, at (r, c). -/
theorem pair_apply (a0 : FVec Ideal S256x128 .bf16) (a2 a4 : FVec Ideal S2048x128 .bf16) (r : Fin 256) (c : Fin 128) :
    concatenate S256x128 1
        [⟨S256x64, weighted (probs (scores (extractStridedSlice S256x64 ![0, 0] a0 slices_S256x128_o0_0_S256x64)
            (extractStridedSlice S2048x64 ![0, 0] a2 slices_S2048x128_o0_0_S2048x64)))
            (extractStridedSlice S2048x64 ![0, 0] a4 slices_S2048x128_o0_0_S2048x64)⟩,
         ⟨S256x64, weighted (probs (scores (extractStridedSlice S256x64 ![0, 64] a0 slices_S256x128_o0_64_S256x64)
            (extractStridedSlice S2048x64 ![0, 64] a2 slices_S2048x128_o0_64_S2048x64)))
            (extractStridedSlice S2048x64 ![0, 64] a4 slices_S2048x128_o0_64_S2048x64)⟩]
        concatenates_S256x64_S256x64_S256x128_d1 (ix2 r c)
      = blkCtx a0 a2 a4 r c := by
  by_cases hc : c.val < 64
  · refine (concatenate_pair_apply_left (t := S256x128) (s₁ := S256x64) (s₂ := S256x64) (1 : Fin 2) _ _
      concatenates_S256x64_S256x64_S256x128_d1 (ix2 r c) rfl (ix2 r (⟨c.val, hc⟩ : Fin 64)) (fun b => by
        match b with
        | ⟨0, _⟩ => rfl
        | ⟨1, _⟩ => rfl)).trans ?_
    exact half_apply 0 _ _ a0 a2 a4 r c ⟨c.val, hc⟩ (by show c.val = 0 + c.val; omega) (by omega)
  · have hc' : c.val - 64 < 64 := by have := c.isLt; omega
    refine (concatenate_pair_apply_right (t := S256x128) (s₁ := S256x64) (s₂ := S256x64) (1 : Fin 2) _ _
      concatenates_S256x64_S256x64_S256x128_d1 (ix2 r c) rfl rfl (ix2 r (⟨c.val - 64, hc'⟩ : Fin 64))
      (fun b hb => by
        match b with
        | ⟨0, _⟩ => rfl
        | ⟨1, _⟩ => exact absurd rfl hb)
      (by show (c.val - 64) + 64 = c.val; omega)).trans ?_
    exact half_apply 64 _ _ a0 a2 a4 r c ⟨c.val - 64, hc'⟩ (by show c.val = 64 + (c.val - 64); omega)
      (by have := c.isLt; omega)

/-- The attention kernel's stored value at (r, c): the block entry of the specification. -/
theorem pay1_apply (v0 : Vec Ideal S256x128 .bf16) (v2 v4 : Vec Ideal S2048x128 .bf16) (r : Fin 256) (c : Fin 128) :
    k1_pay1 (F := Ideal) (k1_pay5 v0 v2 v4) (k1_pay6 v4) (k1_pay7 v0 v2) (ix2 r c) = Cert.Attn.blkCtx v0 v2 v4 r c := by
  have h2 : k1_pay2 (F := Ideal) v0 = v0 := shapeCast_self v0 _
  have h3 : k1_pay3 (F := Ideal) v2 = v2 := shapeCast_self v2 _
  have h4 : k1_pay4 (F := Ideal) v4 = v4 := shapeCast_self v4 _
  have e : k1_pay1 (F := Ideal) (k1_pay5 v0 v2 v4) (k1_pay6 v4) (k1_pay7 v0 v2)
      = concatenate S256x128 1
        [⟨S256x64, weighted (probs (scores (extractStridedSlice S256x64 ![0, 0] (k1_pay2 v0) slices_S256x128_o0_0_S256x64)
            (extractStridedSlice S2048x64 ![0, 0] (k1_pay3 v2) slices_S2048x128_o0_0_S2048x64)))
            (extractStridedSlice S2048x64 ![0, 0] (k1_pay4 v4) slices_S2048x128_o0_0_S2048x64)⟩,
         ⟨S256x64, weighted (probs (scores (extractStridedSlice S256x64 ![0, 64] (k1_pay2 v0) slices_S256x128_o0_64_S256x64)
            (extractStridedSlice S2048x64 ![0, 64] (k1_pay3 v2) slices_S2048x128_o0_64_S2048x64)))
            (extractStridedSlice S2048x64 ![0, 64] (k1_pay4 v4) slices_S2048x128_o0_64_S2048x64)⟩]
        concatenates_S256x64_S256x64_S256x128_d1 := rfl
  rw [e, h2, h3, h4]
  exact pair_apply v0 v2 v4 r c

end Cert.Attn.Pay

end
-- ==== Proof.Value0.lean ====
/-
  The first region's output array after the run, as one function of the arrays the region finds.

  The grid is 3 × 8, the column-block coordinate outermost: point t works on row block t mod 8 and column block
  t / 8.  It reads rows [512·(t mod 8), +512) of the left array and columns [1024·(t / 8), +1024) of the right
  array, and writes back the 512 × 1024 block of their matrix product at that place.  The 8 × 3 blocks tile the
  4096 × 3072 output, so the array ends holding the whole product.
-/
import proofs.«164267_j82918638616721_2_alg».proof.Proof.Region0
import proofs.«164267_j82918638616721_2_alg».proof.Proof.Payloads
import proofs.«164267_j82918638616721_2_alg».proof.Proof.Spec
import Idealize.ShloMosaic.Lib.Pipeline.Value
import Idealize.ShloMosaic.Lib.ValueIdx

set_option maxRecDepth 16384

noncomputable section

open scoped BigOperators

namespace Cert.KernelIdeal.Att

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

/-- The block indices of the three windows at point t: row block t mod 8, column block t / 8. -/
theorem idx_facts0 : ∀ t : Fin cfg0.N, win0_0.index t (0 : Fin 2) = t.val % 8
    ∧ win0_0.index t (1 : Fin 2) = 0
    ∧ win0_1.index t (0 : Fin 2) = 0
    ∧ win0_1.index t (1 : Fin 2) = t.val / 8
    ∧ win0_2.index t (0 : Fin 2) = t.val % 8
    ∧ win0_2.index t (1 : Fin 2) = t.val / 8 :=
  (by decide +kernel : ∀ t : Fin grid0.N, _)

/-- The product of a 512-row block of A with a 1024-column block of B is the block of the product A · B. -/
theorem blk_mm0 (x0 : Vec Ideal S512x1024 .f32) (x1 : Vec Ideal S1024x1024 .f32)
    (A : (⟨2, ![4096, 1024]⟩ : Shape).Idx → EReal) (B : (⟨2, ![1024, 3072]⟩ : Shape).Idx → EReal)
    (p : Fin 512) (q : Fin 1024) (P : Fin 4096) (Q : Fin 3072)
    (h0 : ∀ k : Fin 1024, x0 (ix2 p k) = A (ix2 P k)) (h1 : ∀ k : Fin 1024, x1 (ix2 k q) = B (ix2 k Q)) :
    k0_pay1 (F := Ideal) x0 x1 (ix2 p q) = Cert.Attn.mmA A B (ix2 P Q) := by
  rw [Cert.Attn.Pay.pay0_apply]
  show (∑ k : Fin 1024, x0 (ix2 p k) * x1 (ix2 k q)) = ∑ k : Fin 1024, A (ix2 P k) * B (ix2 k Q)
  exact Finset.sum_congr rfl fun k _ => by rw [h0 k, h1 k]

/-- What point t writes back is block t of the matrix product of the two arrays. -/
theorem flushed0_eq (c : Dev nD) (t : Fin cfg0.N) :
    (dat0 (F := Ideal) V c).flushed 2 t
      = ((cfg0.win 2).blk t).view.read (Elt Ideal)
          (Cert.Attn.mmA (M := 4096) (K := 1024) (N := 3072) (V c main_v0) (V c main_arg1)) := by
  show (cfg0.win 2).cut (grid0.coords t) ((dat0 V c).after 2 t) = _
  rw [after0_2]
  unfold out0_2
  rw [View.canon_unit_zero hz0]
  simp only [View.ld_unit_zero (S := S512x1024) hz0, View.ld_unit_zero (S := S1024x1024) hz0]
  obtain ⟨e0, e1, e2, e3, e4, e5⟩ := idx_facts0 t
  have hN : grid0.N = 24 := Gen.N_0
  have ht : t.val < 24 := hN ▸ t.isLt
  funext j
  obtain ⟨p, q, rfl⟩ : ∃ (p : Fin 512) (q : Fin 1024), j = ix2 p q := ⟨j 0, j 1, eq_ix2 j⟩
  have hp := p.isLt
  have hq := q.isLt
  have hP : (t.val % 8) * 512 + p.val < 4096 := by omega
  have hQ : (t.val / 8) * 1024 + q.val < 3072 := by omega
  have hemb : ((cfg0.win 2).blk t).view.emb (ix2 p q)
      = ix2 (⟨(t.val % 8) * 512 + p.val, hP⟩ : Fin 4096) (⟨(t.val / 8) * 1024 + q.val, hQ⟩ : Fin 3072) := by
    funext a; apply Fin.ext
    match a with
    | ⟨0, _⟩ => show win0_2.index t (0 : Fin 2) * 512 + 1 * p.val = (t.val % 8) * 512 + p.val; omega
    | ⟨1, _⟩ => show win0_2.index t (1 : Fin 2) * 1024 + 1 * q.val = (t.val / 8) * 1024 + q.val; omega
  show k0_pay1 (F := Ideal) (iblk0 V c 0 t) (iblk0 V c 1 t) (ix2 p q)
    = Cert.Attn.mmA (M := 4096) (K := 1024) (N := 3072) (V c main_v0) (V c main_arg1) (((cfg0.win 2).blk t).view.emb (ix2 p q))
  rw [hemb]
  refine blk_mm0 _ _ _ _ p q _ _ (fun k => ?_) (fun k => ?_)
  · show V c main_v0 (((cfg0.win 0).blk t).view.emb (ix2 p k)) = V c main_v0 (ix2 (⟨(t.val % 8) * 512 + p.val, hP⟩ : Fin 4096) k)
    refine congrArg (V c main_v0) (funext fun a => Fin.ext ?_)
    match a with
    | ⟨0, _⟩ => show win0_0.index t (0 : Fin 2) * 512 + 1 * p.val = (t.val % 8) * 512 + p.val; omega
    | ⟨1, _⟩ => show win0_0.index t (1 : Fin 2) * 1024 + 1 * k.val = k.val; omega
  · show V c main_arg1 (((cfg0.win 1).blk t).view.emb (ix2 k q)) = V c main_arg1 (ix2 k (⟨(t.val / 8) * 1024 + q.val, hQ⟩ : Fin 3072))
    refine congrArg (V c main_arg1) (funext fun a => Fin.ext ?_)
    match a with
    | ⟨0, _⟩ => show win0_1.index t (0 : Fin 2) * 1024 + 1 * k.val = k.val; omega
    | ⟨1, _⟩ => show win0_1.index t (1 : Fin 2) * 1024 + 1 * q.val = (t.val / 8) * 1024 + q.val; omega

/-- An index of the output array is in point t's block iff each coordinate is in the block's range on its axis. -/
theorem mem_blk0 (t : Fin cfg0.N) (i : S4096x3072.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v1).slice (win0_2.rect t)).set ↔ _
  rw [View.set_slice_whole, Rect.mem_set_unit]
  exact Iff.rfl

/-- Every index of the output array is in the block of the point with its row block and column block. -/
theorem cover0 (i : S4096x3072.Idx) :
    ∃ t : Fin cfg0.N, (cfg0.win 2).flush t = true ∧ i ∈ ((cfg0.win 2).blk t).view.set := by
  have hi0 : (i 0).val < 4096 := (i 0).isLt
  have hi1 : (i 1).val < 3072 := (i 1).isLt
  have hN : grid0.N = 24 := Gen.N_0
  have hlt : (i 1).val / 1024 * 8 + (i 0).val / 512 < cfg0.N := by show _ < grid0.N; rw [hN]; omega
  refine ⟨⟨(i 1).val / 1024 * 8 + (i 0).val / 512, hlt⟩, flush0_2 _, ?_⟩
  obtain ⟨e0, e1, e2, e3, e4, e5⟩ := idx_facts0 ⟨(i 1).val / 1024 * 8 + (i 0).val / 512, hlt⟩
  rw [mem_blk0]
  intro a
  match a with
  | ⟨0, _⟩ =>
    show win0_2.index _ (0 : Fin 2) * 512 ≤ (i 0).val ∧ (i 0).val < win0_2.index _ (0 : Fin 2) * 512 + 512
    rw [e4]; show ((i 1).val / 1024 * 8 + (i 0).val / 512) % 8 * 512 ≤ _ ∧ _ < ((i 1).val / 1024 * 8 + (i 0).val / 512) % 8 * 512 + 512; omega
  | ⟨1, _⟩ =>
    show win0_2.index _ (1 : Fin 2) * 1024 ≤ (i 1).val ∧ (i 1).val < win0_2.index _ (1 : Fin 2) * 1024 + 1024
    rw [e5]; show ((i 1).val / 1024 * 8 + (i 0).val / 512) / 8 * 1024 ≤ _ ∧ _ < ((i 1).val / 1024 * 8 + (i 0).val / 512) / 8 * 1024 + 1024; omega

/-- The first region's output array after the run: the matrix product of the two arrays it reads. -/
theorem final0 (c : Dev nD) :
    (dat0 (F := Ideal) V c).arrAt 2 cfg0.N
      = Cert.Attn.mmA (M := 4096) (K := 1024) (N := 3072) (V c main_v0) (V c main_arg1) :=
  (dat0 (F := Ideal) V c).arrAt_eq_of_cover 2 _ (fun t _ => flushed0_eq V c t) cover0

end Cert.KernelIdeal.Att

end
-- ==== Proof.Value1.lean ====
/-
  The second region's output array after the run, as one function of the array the region finds.

  The region reads one 4096 × 3072 array Q laid out as [query | key | value], each part 1024 columns, and writes a
  4096 × 1024 array.  The grid is 2 × 8 × 8 (batch b, head pair h, query block i): point t = 64·b + 8·h + i takes
  the 256 × 128 query block at rows [256·(8·b + i), +256), columns [128·h, +128), the 2048 × 128 key block at rows
  [2048·b, +2048), columns [128·(8 + h), +128) and the value block at the same rows, columns [128·(16 + h), +128),
  and writes back a 256 × 128 block at the query block's place.

  For the entry at row r and column c of that block, let m = 256·(8·b + i) + r and e = 128·h + c.  Then m / 2048 = b,
  so the key and value rows 2048·b + t' are the rows of the batch of m; the head of column e starts at column
  (e / 64)·64 = 128·h + (c / 64)·64, which is where the block's head of column c starts; the key columns lie 1024 and
  the value column 2048 further on.  So the block's entry is the context entry (m, e) of Q, and since the 16 × 8
  blocks tile the output, the array ends holding the whole context matrix.
-/
import proofs.«164267_j82918638616721_2_alg».proof.Proof.Region1
import proofs.«164267_j82918638616721_2_alg».proof.Proof.Payloads
import proofs.«164267_j82918638616721_2_alg».proof.Proof.Spec
import Idealize.ShloMosaic.Lib.Pipeline.Value
import Idealize.ShloMosaic.Lib.ValueIdx

set_option maxRecDepth 16384

noncomputable section

open scoped BigOperators

namespace Cert.KernelIdeal.Att

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

/-- The block indices of the four windows at point t = 64·b + 8·h + i. -/
theorem idx_facts1 : ∀ t : Fin cfg1.N, win1_0.index t (0 : Fin 2) = t.val / 64 * 8 + t.val % 8
    ∧ win1_0.index t (1 : Fin 2) = t.val / 8 % 8
    ∧ win1_1.index t (0 : Fin 2) = t.val / 64
    ∧ win1_1.index t (1 : Fin 2) = 8 + t.val / 8 % 8
    ∧ win1_2.index t (0 : Fin 2) = t.val / 64
    ∧ win1_2.index t (1 : Fin 2) = 16 + t.val / 8 % 8
    ∧ win1_3.index t (0 : Fin 2) = t.val / 64 * 8 + t.val % 8
    ∧ win1_3.index t (1 : Fin 2) = t.val / 8 % 8 :=
  (by decide +kernel : ∀ t : Fin grid1.N, _)

/-- The attention block of three blocks of Q that sit where the context entry (m, e) reads Q is that entry. -/
theorem blk_ctx1 (x0 : Vec Ideal S256x128 .bf16) (x1 x2 : Vec Ideal S2048x128 .bf16)
    (Q : (⟨2, ![4096, 3072]⟩ : Shape).Idx → EReal) (r : Fin 256) (c' : Fin 128) (m : Fin 4096) (e : Fin 1024)
    (h0 : ∀ d : Fin 64, x0 (ix2 r (Cert.Attn.hcol c' d)) = Q (ix2 m (Cert.Attn.colq e d)))
    (h1 : ∀ (t' : Fin 2048) (d : Fin 64),
      x1 (ix2 t' (Cert.Attn.hcol c' d)) = Q (ix2 (Cert.Attn.rowb m t') (Cert.Attn.colk e d)))
    (h2 : ∀ t' : Fin 2048, x2 (ix2 t' c') = Q (ix2 (Cert.Attn.rowb m t') (Cert.Attn.colv e))) :
    k1_pay1 (F := Ideal) (k1_pay5 x0 x1 x2) (k1_pay6 x2) (k1_pay7 x0 x1) (ix2 r c') = Cert.Attn.ctxA Q (ix2 m e) := by
  rw [Cert.Attn.Pay.pay1_apply]
  show Cert.Attn.softCtx (fun d => x0 (ix2 r (Cert.Attn.hcol c' d))) (fun t' d => x1 (ix2 t' (Cert.Attn.hcol c' d)))
      (fun t' => x2 (ix2 t' c'))
    = Cert.Attn.softCtx (fun d => Q (ix2 m (Cert.Attn.colq e d)))
      (fun t' d => Q (ix2 (Cert.Attn.rowb m t') (Cert.Attn.colk e d))) (fun t' => Q (ix2 (Cert.Attn.rowb m t') (Cert.Attn.colv e)))
  rw [show (fun d => x0 (ix2 r (Cert.Attn.hcol c' d))) = fun d => Q (ix2 m (Cert.Attn.colq e d)) from funext h0,
    show (fun (t' : Fin 2048) (d : Fin 64) => x1 (ix2 t' (Cert.Attn.hcol c' d)))
      = fun t' d => Q (ix2 (Cert.Attn.rowb m t') (Cert.Attn.colk e d)) from funext fun t' => funext fun d => h1 t' d,
    show (fun t' : Fin 2048 => x2 (ix2 t' c')) = fun t' => Q (ix2 (Cert.Attn.rowb m t') (Cert.Attn.colv e)) from funext h2]

/-- What point t writes back is block t of the context matrix of the array. -/
theorem flushed1_eq (c : Dev nD) (t : Fin cfg1.N) :
    (dat1 (F := Ideal) V c).flushed 3 t
      = ((cfg1.win 3).blk t).view.read (Elt Ideal) (Cert.Attn.ctxA (V c main_v1)) := by
  show (cfg1.win 3).cut (grid1.coords t) ((dat1 V c).after 3 t) = _
  rw [after1_3]
  unfold out1_3
  rw [View.canon_unit_zero hz1]
  simp only [View.ld_unit_zero (S := S256x128) hz1, View.ld_unit_zero (S := S2048x128) hz1]
  obtain ⟨e0, e1, e2, e3, e4, e5, e6, e7⟩ := idx_facts1 t
  have hN : grid1.N = 128 := Gen.N_1
  have ht : t.val < 128 := hN ▸ t.isLt
  funext j
  obtain ⟨r, c', rfl⟩ : ∃ (r : Fin 256) (c' : Fin 128), j = ix2 r c' := ⟨j 0, j 1, eq_ix2 j⟩
  have hr := r.isLt
  have hc := c'.isLt
  have hM : (t.val / 64 * 8 + t.val % 8) * 256 + r.val < 4096 := by omega
  have hE : t.val / 8 % 8 * 128 + c'.val < 1024 := by omega
  have hemb : ((cfg1.win 3).blk t).view.emb (ix2 r c')
      = ix2 (⟨(t.val / 64 * 8 + t.val % 8) * 256 + r.val, hM⟩ : Fin 4096) (⟨t.val / 8 % 8 * 128 + c'.val, hE⟩ : Fin 1024) := by
    funext a; apply Fin.ext
    match a with
    | ⟨0, _⟩ => show win1_3.index t (0 : Fin 2) * 256 + 1 * r.val = (t.val / 64 * 8 + t.val % 8) * 256 + r.val; omega
    | ⟨1, _⟩ => show win1_3.index t (1 : Fin 2) * 128 + 1 * c'.val = t.val / 8 % 8 * 128 + c'.val; omega
  show k1_pay1 (F := Ideal) (k1_pay5 (iblk1 V c 0 t) (iblk1 V c 1 t) (iblk1 V c 2 t)) (k1_pay6 (iblk1 V c 2 t))
      (k1_pay7 (iblk1 V c 0 t) (iblk1 V c 1 t)) (ix2 r c')
    = Cert.Attn.ctxA (V c main_v1) (((cfg1.win 3).blk t).view.emb (ix2 r c'))
  rw [hemb]
  refine blk_ctx1 _ _ _ _ r c' _ _ (fun d => ?_) (fun t' d => ?_) (fun t' => ?_)
  · have hd := d.isLt
    show V c main_v1 (((cfg1.win 0).blk t).view.emb (ix2 r (Cert.Attn.hcol c' d))) = V c main_v1 (ix2 _ (Cert.Attn.colq _ d))
    refine congrArg (V c main_v1) (funext fun a => Fin.ext ?_)
    match a with
    | ⟨0, _⟩ => show win1_0.index t (0 : Fin 2) * 256 + 1 * r.val = (t.val / 64 * 8 + t.val % 8) * 256 + r.val; omega
    | ⟨1, _⟩ =>
      show win1_0.index t (1 : Fin 2) * 128 + 1 * (c'.val / 64 * 64 + d.val) = (t.val / 8 % 8 * 128 + c'.val) / 64 * 64 + d.val
      omega
  · have hd := d.isLt
    have ht' := t'.isLt
    show V c main_v1 (((cfg1.win 1).blk t).view.emb (ix2 t' (Cert.Attn.hcol c' d)))
      = V c main_v1 (ix2 (Cert.Attn.rowb _ t') (Cert.Attn.colk _ d))
    refine congrArg (V c main_v1) (funext fun a => Fin.ext ?_)
    match a with
    | ⟨0, _⟩ =>
      show win1_1.index t (0 : Fin 2) * 2048 + 1 * t'.val = ((t.val / 64 * 8 + t.val % 8) * 256 + r.val) / 2048 * 2048 + t'.val
      omega
    | ⟨1, _⟩ =>
      show win1_1.index t (1 : Fin 2) * 128 + 1 * (c'.val / 64 * 64 + d.val)
        = 1024 + (t.val / 8 % 8 * 128 + c'.val) / 64 * 64 + d.val
      omega
  · have ht' := t'.isLt
    show V c main_v1 (((cfg1.win 2).blk t).view.emb (ix2 t' c')) = V c main_v1 (ix2 (Cert.Attn.rowb _ t') (Cert.Attn.colv _))
    refine congrArg (V c main_v1) (funext fun a => Fin.ext ?_)
    match a with
    | ⟨0, _⟩ =>
      show win1_2.index t (0 : Fin 2) * 2048 + 1 * t'.val = ((t.val / 64 * 8 + t.val % 8) * 256 + r.val) / 2048 * 2048 + t'.val
      omega
    | ⟨1, _⟩ => show win1_2.index t (1 : Fin 2) * 128 + 1 * c'.val = 2048 + (t.val / 8 % 8 * 128 + c'.val); omega

/-- An index of the output array is in point t's block iff each coordinate is in the block's range on its axis. -/
theorem mem_blk1 (t : Fin cfg1.N) (i : S4096x1024.Idx) :
    i ∈ ((cfg1.win 3).blk t).view.set ↔ ∀ a : Fin 2, win1_3.index t a * S256x128.size a ≤ (i a).val
      ∧ (i a).val < win1_3.index t a * S256x128.size a + S256x128.size a := by
  show i ∈ ((View.whole main_v2).slice (win1_3.rect t)).set ↔ _
  rw [View.set_slice_whole, Rect.mem_set_unit]
  exact Iff.rfl

/-- Every index of the output array is in the block of the point with its batch, head pair and query block. -/
theorem cover1 (i : S4096x1024.Idx) :
    ∃ t : Fin cfg1.N, (cfg1.win 3).flush t = true ∧ i ∈ ((cfg1.win 3).blk t).view.set := by
  have hi0 : (i 0).val < 4096 := (i 0).isLt
  have hi1 : (i 1).val < 1024 := (i 1).isLt
  have hN : grid1.N = 128 := Gen.N_1
  have hlt : (i 0).val / 2048 * 64 + (i 1).val / 128 * 8 + (i 0).val / 256 % 8 < cfg1.N := by
    show _ < grid1.N; rw [hN]; omega
  refine ⟨⟨(i 0).val / 2048 * 64 + (i 1).val / 128 * 8 + (i 0).val / 256 % 8, hlt⟩, flush1_3 _, ?_⟩
  obtain ⟨e0, e1, e2, e3, e4, e5, e6, e7⟩ :=
    idx_facts1 ⟨(i 0).val / 2048 * 64 + (i 1).val / 128 * 8 + (i 0).val / 256 % 8, hlt⟩
  rw [mem_blk1]
  intro a
  match a with
  | ⟨0, _⟩ =>
    show win1_3.index _ (0 : Fin 2) * 256 ≤ (i 0).val ∧ (i 0).val < win1_3.index _ (0 : Fin 2) * 256 + 256
    rw [e6]
    show (((i 0).val / 2048 * 64 + (i 1).val / 128 * 8 + (i 0).val / 256 % 8) / 64 * 8
        + ((i 0).val / 2048 * 64 + (i 1).val / 128 * 8 + (i 0).val / 256 % 8) % 8) * 256 ≤ _
      ∧ _ < (((i 0).val / 2048 * 64 + (i 1).val / 128 * 8 + (i 0).val / 256 % 8) / 64 * 8
        + ((i 0).val / 2048 * 64 + (i 1).val / 128 * 8 + (i 0).val / 256 % 8) % 8) * 256 + 256
    omega
  | ⟨1, _⟩ =>
    show win1_3.index _ (1 : Fin 2) * 128 ≤ (i 1).val ∧ (i 1).val < win1_3.index _ (1 : Fin 2) * 128 + 128
    rw [e7]
    show ((i 0).val / 2048 * 64 + (i 1).val / 128 * 8 + (i 0).val / 256 % 8) / 8 % 8 * 128 ≤ _
      ∧ _ < ((i 0).val / 2048 * 64 + (i 1).val / 128 * 8 + (i 0).val / 256 % 8) / 8 % 8 * 128 + 128
    omega

/-- The second region's output array after the run: the context matrix of the array it reads. -/
theorem final1 (c : Dev nD) :
    (dat1 (F := Ideal) V c).arrAt 3 cfg1.N = Cert.Attn.ctxA (V c main_v1) :=
  (dat1 (F := Ideal) V c).arrAt_eq_of_cover 3 _ (fun t _ => flushed1_eq V c t) cover1

end Cert.KernelIdeal.Att

end
-- ==== Proof.Value2.lean ====
/-
  The third region's output array after the run, as one function of the arrays the region finds.

  The grid has 8 points: point t reads rows [512·t, +512) of the left array and the whole 1024 × 1024 right array,
  and writes back the 512 × 1024 block of their matrix product at rows [512·t, +512).  The 8 row blocks tile the
  4096 × 1024 output, so the array ends holding the whole product.
-/
import proofs.«164267_j82918638616721_2_alg».proof.Proof.Region2
import proofs.«164267_j82918638616721_2_alg».proof.Proof.Payloads
import proofs.«164267_j82918638616721_2_alg».proof.Proof.Spec
import Idealize.ShloMosaic.Lib.Pipeline.Value
import Idealize.ShloMosaic.Lib.ValueIdx

set_option maxRecDepth 16384

noncomputable section

open scoped BigOperators

namespace Cert.KernelIdeal.Att

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The block indices of the three windows at point t: row block t, the right array whole. -/
theorem idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- The product of a 512-row block of A with B is the block of the product A · B. -/
theorem blk_mm2 (x0 : Vec Ideal S512x1024 .bf16) (x1 : Vec Ideal S1024x1024 .f32)
    (A : (⟨2, ![4096, 1024]⟩ : Shape).Idx → EReal) (B : (⟨2, ![1024, 1024]⟩ : Shape).Idx → EReal)
    (p : Fin 512) (q : Fin 1024) (P : Fin 4096) (Q : Fin 1024)
    (h0 : ∀ k : Fin 1024, x0 (ix2 p k) = A (ix2 P k)) (h1 : ∀ k : Fin 1024, x1 (ix2 k q) = B (ix2 k Q)) :
    k2_pay1 (F := Ideal) x0 x1 (ix2 p q) = Cert.Attn.mmA A B (ix2 P Q) := by
  rw [Cert.Attn.Pay.pay2_apply]
  show (∑ k : Fin 1024, x0 (ix2 p k) * x1 (ix2 k q)) = ∑ k : Fin 1024, A (ix2 P k) * B (ix2 k Q)
  exact Finset.sum_congr rfl fun k _ => by rw [h0 k, h1 k]

/-- What point t writes back is block t of the matrix product of the two arrays. -/
theorem flushed2_eq (c : Dev nD) (t : Fin cfg2.N) :
    (dat2 (F := Ideal) V c).flushed 2 t
      = ((cfg2.win 2).blk t).view.read (Elt Ideal)
          (Cert.Attn.mmA (M := 4096) (K := 1024) (N := 1024) (V c main_v2) (V c main_arg2)) := by
  show (cfg2.win 2).cut (grid2.coords t) ((dat2 V c).after 2 t) = _
  rw [after2_2]
  unfold out2_2
  rw [View.canon_unit_zero hz2]
  simp only [View.ld_unit_zero (S := S512x1024) hz2, View.ld_unit_zero (S := S1024x1024) hz2]
  obtain ⟨e0, e1, e2, e3, e4, e5⟩ := idx_facts2 t
  have hN : grid2.N = 8 := Gen.N_2
  have ht : t.val < 8 := hN ▸ t.isLt
  funext j
  obtain ⟨p, q, rfl⟩ : ∃ (p : Fin 512) (q : Fin 1024), j = ix2 p q := ⟨j 0, j 1, eq_ix2 j⟩
  have hp := p.isLt
  have hq := q.isLt
  have hP : t.val * 512 + p.val < 4096 := by omega
  have hemb : ((cfg2.win 2).blk t).view.emb (ix2 p q) = ix2 (⟨t.val * 512 + p.val, hP⟩ : Fin 4096) q := by
    funext a; apply Fin.ext
    match a with
    | ⟨0, _⟩ => show win2_2.index t (0 : Fin 2) * 512 + 1 * p.val = t.val * 512 + p.val; omega
    | ⟨1, _⟩ => show win2_2.index t (1 : Fin 2) * 1024 + 1 * q.val = q.val; omega
  show k2_pay1 (F := Ideal) (iblk2 V c 0 t) (iblk2 V c 1 t) (ix2 p q)
    = Cert.Attn.mmA (M := 4096) (K := 1024) (N := 1024) (V c main_v2) (V c main_arg2) (((cfg2.win 2).blk t).view.emb (ix2 p q))
  rw [hemb]
  refine blk_mm2 _ _ _ _ p q _ _ (fun k => ?_) (fun k => ?_)
  · show V c main_v2 (((cfg2.win 0).blk t).view.emb (ix2 p k)) = V c main_v2 (ix2 (⟨t.val * 512 + p.val, hP⟩ : Fin 4096) k)
    refine congrArg (V c main_v2) (funext fun a => Fin.ext ?_)
    match a with
    | ⟨0, _⟩ => show win2_0.index t (0 : Fin 2) * 512 + 1 * p.val = t.val * 512 + p.val; omega
    | ⟨1, _⟩ => show win2_0.index t (1 : Fin 2) * 1024 + 1 * k.val = k.val; omega
  · show V c main_arg2 (((cfg2.win 1).blk t).view.emb (ix2 k q)) = V c main_arg2 (ix2 k q)
    refine congrArg (V c main_arg2) (funext fun a => Fin.ext ?_)
    match a with
    | ⟨0, _⟩ => show win2_1.index t (0 : Fin 2) * 1024 + 1 * k.val = k.val; omega
    | ⟨1, _⟩ => show win2_1.index t (1 : Fin 2) * 1024 + 1 * q.val = q.val; omega

/-- An index of the output array is in point t's block iff each coordinate is in the block's range on its axis. -/
theorem mem_blk2 (t : Fin cfg2.N) (i : S4096x1024.Idx) :
    i ∈ ((cfg2.win 2).blk t).view.set ↔ ∀ a : Fin 2, win2_2.index t a * S512x1024.size a ≤ (i a).val
      ∧ (i a).val < win2_2.index t a * S512x1024.size a + S512x1024.size a := by
  show i ∈ ((View.whole main_v3).slice (win2_2.rect t)).set ↔ _
  rw [View.set_slice_whole, Rect.mem_set_unit]
  exact Iff.rfl

/-- Every index of the output array is in the block of the point with its row block. -/
theorem cover2 (i : S4096x1024.Idx) :
    ∃ t : Fin cfg2.N, (cfg2.win 2).flush t = true ∧ i ∈ ((cfg2.win 2).blk t).view.set := by
  have hi0 : (i 0).val < 4096 := (i 0).isLt
  have hi1 : (i 1).val < 1024 := (i 1).isLt
  have hN : grid2.N = 8 := Gen.N_2
  have hlt : (i 0).val / 512 < cfg2.N := by show _ < grid2.N; rw [hN]; omega
  refine ⟨⟨(i 0).val / 512, hlt⟩, flush2_2 _, ?_⟩
  obtain ⟨e0, e1, e2, e3, e4, e5⟩ := idx_facts2 ⟨(i 0).val / 512, hlt⟩
  rw [mem_blk2]
  intro a
  match a with
  | ⟨0, _⟩ =>
    show win2_2.index _ (0 : Fin 2) * 512 ≤ (i 0).val ∧ (i 0).val < win2_2.index _ (0 : Fin 2) * 512 + 512
    rw [e4]; show (i 0).val / 512 * 512 ≤ _ ∧ _ < (i 0).val / 512 * 512 + 512; omega
  | ⟨1, _⟩ =>
    show win2_2.index _ (1 : Fin 2) * 1024 ≤ (i 1).val ∧ (i 1).val < win2_2.index _ (1 : Fin 2) * 1024 + 1024
    rw [e5]; omega

/-- The third region's output array after the run: the matrix product of the two arrays it reads. -/
theorem final2 (c : Dev nD) :
    (dat2 (F := Ideal) V c).arrAt 2 cfg2.N
      = Cert.Attn.mmA (M := 4096) (K := 1024) (N := 1024) (V c main_v2) (V c main_arg2) :=
  (dat2 (F := Ideal) V c).arrAt_eq_of_cover 2 _ (fun t _ => flushed2_eq V c t) cover2

end Cert.KernelIdeal.Att

end
-- ==== Proof.Reshapes.lean ====
/-
  The kernel program's two host reshapes, read at an index.

  A reshape keeps every element at its row-major position.  The position of (b, s, e) in a 2 × 2048 × 1024 array is
  (b·2048 + s)·1024 + e, and the position of (m, e) in a 4096 × 1024 matrix is m·1024 + e: so the matrix made from x
  has, in row m, the entries of batch m / 2048 at position m % 2048, and the array made back from a matrix has, at
  (b, s, e), the matrix's entry (b·2048 + s, e).
-/
import proofs.«164267_j82918638616721_2_alg».proof.Proof.Gen.KernelIdeal.Launch
import proofs.«164267_j82918638616721_2_alg».proof.Proof.Spec
import Idealize.ShloMosaic.Lib.StableHlo.Run
import Idealize.ShloMosaic.Lib.Pipeline.Value
import Idealize.ShloMosaic.Lib.ValueIdx

noncomputable section

namespace Cert.KernelIdeal.Att

open Cert.KernelIdeal Cert.KernelIdeal.Gen Idealize.ShloMosaic Idealize.ShloMosaic.TcCoe Idealize.ShloMosaic.ValueIdx

/-- The matrix made from x by the first reshape is x read as 4096 rows: row m holds batch m / 2048 at position m % 2048. -/
theorem reshape_in (W : Valuation τ sig (Elt Ideal)) :
    (StableHlo.after (hostOps0 (F := Ideal)) W (Proc.devRef .tc main_v0) : S4096x1024.Idx → EReal) = Cert.Attn.X2 (W (Proc.devRef .tc main_arg0)) := by
  after_results
  funext j
  obtain ⟨m, e, rfl⟩ : ∃ (m : Fin 4096) (e : Fin 1024), j = ix2 m e := ⟨j 0, j 1, eq_ix2 j⟩
  have hm := m.isLt
  show shapeCast S4096x1024 (W (Proc.devRef .tc main_arg0) : S2x2048x1024.Idx → EReal) shapeCasts_S2x2048x1024_S4096x1024 (ix2 m e)
      = (W (Proc.devRef .tc main_arg0) : S2x2048x1024.Idx → EReal)
          (ix3 (⟨m.val / 2048, by omega⟩ : Fin 2) (⟨m.val % 2048, Nat.mod_lt _ (by norm_num)⟩ : Fin 2048) e)
  refine shapeCast_apply (s := S2x2048x1024) (t := S4096x1024) _ _ _ _ ?_
  rw [Shape.rowMajor_val_three, Shape.rowMajor_val_two]
  show (m.val / 2048 * 2048 + m.val % 2048) * 1024 + e.val = m.val * 1024 + e.val
  omega

/-- The array made back from the result matrix by the last reshape has, at (b, s, e), the matrix's entry
    (b·2048 + s, e). -/
theorem reshape_out (W : Valuation τ sig (Elt Ideal)) (i : S2x2048x1024.Idx) :
    (StableHlo.after (hostOps3 (F := Ideal)) W (Proc.devRef .tc main_v4) : S2x2048x1024.Idx → EReal) i = W (Proc.devRef .tc main_v3) (ix2 (Cert.Attn.row (i 0) (i 1)) (i 2)) := by
  after_results
  obtain ⟨b, s, e, rfl⟩ : ∃ (b : Fin 2) (s : Fin 2048) (e : Fin 1024), i = ix3 b s e := ⟨i 0, i 1, i 2, eq_ix3 i⟩
  show shapeCast S2x2048x1024 (W (Proc.devRef .tc main_v3) : S4096x1024.Idx → EReal) shapeCasts_S4096x1024_S2x2048x1024 (ix3 b s e)
      = (W (Proc.devRef .tc main_v3) : S4096x1024.Idx → EReal) (ix2 (Cert.Attn.row b s) e)
  refine shapeCast_apply (s := S4096x1024) (t := S2x2048x1024) _ _ _ _ ?_
  rw [Shape.rowMajor_val_two, Shape.rowMajor_val_three]
  rfl

end Cert.KernelIdeal.Att

end
-- ==== Proof.ValueChain.lean ====
/-
  The result buffer at the end of the run, at the ideal instance, as one function of the three argument arrays.

  Reading the boundary contents backwards: the result is the reshape of the third region's output array; that array
  is the matrix product of the context array with Wo; the context array is the attention of the projected array; the
  projected array is the matrix product of the reshaped input with Wq; and the reshaped input is x read as a
  4096 × 1024 matrix. The weights reach their regions as launched: nothing writes an argument.
-/
import proofs.«164267_j82918638616721_2_alg».proof.Proof.Run
import proofs.«164267_j82918638616721_2_alg».proof.Proof.Value0
import proofs.«164267_j82918638616721_2_alg».proof.Proof.Value1
import proofs.«164267_j82918638616721_2_alg».proof.Proof.Value2
import proofs.«164267_j82918638616721_2_alg».proof.Proof.Reshapes

noncomputable section

namespace Cert.KernelIdeal.Att

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The first region finds x reshaped to 4096 × 1024, -/
theorem V1_v0 (c : Dev nD) :
    (V1 m ρ c main_v0 : S4096x1024.Idx → EReal) = Cert.Attn.X2 (m ((c : Thread nD τ).loc main_arg0)) :=
  reshape_in (W0 m ρ c)
/-- and Wq as launched. -/
theorem V1_arg1 (c : Dev nD) : V1 m ρ c main_arg1 = m ((c : Thread nD τ).loc main_arg1) :=
  StableHlo.after_of_writes_sub hostOps0 _ hostOps0_writes (by decide)

/-- The projected array after the first region. -/
theorem V2_v1 (c : Dev nD) :
    (V2 m ρ c main_v1 : S4096x3072.Idx → EReal)
      = Cert.Attn.mmA (Cert.Attn.X2 (m ((c : Thread nD τ).loc main_arg0))) (m ((c : Thread nD τ).loc main_arg1)) :=
  (W2_arr m ρ c 2).trans ((final0 (V1 m ρ) c).trans (by rw [V1_v0, V1_arg1]))

/-- The context array after the second region. -/
theorem V3_v2 (c : Dev nD) :
    (V3 m ρ c main_v2 : S4096x1024.Idx → EReal)
      = Cert.Attn.ctxA (Cert.Attn.mmA (Cert.Attn.X2 (m ((c : Thread nD τ).loc main_arg0))) (m ((c : Thread nD τ).loc main_arg1))) :=
  (W3_v2 m ρ c).trans ((final1 (V2 m ρ) c).trans (by rw [V2_v1]))

/-- The third region finds Wo as launched. -/
theorem V3_arg2 (c : Dev nD) : V3 m ρ c main_arg2 = m ((c : Thread nD τ).loc main_arg2) :=
  (W3_of_ne m ρ c main_arg2 (by decide)).trans ((W2_of_ne m ρ c main_arg2 (by decide)).trans
    (StableHlo.after_of_writes_sub hostOps0 _ hostOps0_writes (by decide)))

/-- The third region's output array. -/
theorem V4_v3 (c : Dev nD) :
    (V4 m ρ c main_v3 : S4096x1024.Idx → EReal)
      = Cert.Attn.out2 (m ((c : Thread nD τ).loc main_arg0)) (m ((c : Thread nD τ).loc main_arg1)) (m ((c : Thread nD τ).loc main_arg2)) :=
  (W4_arr m ρ c 2).trans ((final2 (V3 m ρ) c).trans (by rw [V3_v2, V3_arg2]; rfl))

/-- The result buffer at the end is the attention function of the arguments. -/
theorem result_eq (c : Dev nD) :
    (W5 m ρ c (Proc.devRef .tc main_v4) : S2x2048x1024.Idx → EReal)
      = Cert.Attn.G (m ((c : Thread nD τ).loc main_arg0)) (m ((c : Thread nD τ).loc main_arg1)) (m ((c : Thread nD τ).loc main_arg2)) := by
  funext i
  refine (reshape_out (W4 m ρ c) i).trans ?_
  exact congrFun (V4_v3 m ρ c) _

end Cert.KernelIdeal.Att

end
-- ==== Proof.RefSide.lean ====
/-
  The reference program is the attention function of the specification.

  The reference projects x by Wq, regroups the 3072 projected columns as (part, head, coordinate) with part 0 the
  queries, part 1 the keys and part 2 the values, and moves the head axis in front of the position axis.  Read at an
  index, each of these re-layings only renames coordinates: entry (part c, batch b, head h, position s, coordinate d)
  of the regrouped array is entry (b, s, c·1024 + h·64 + d) of the projection, and that is entry (b·2048 + s, ·) of
  the 4096-row matrix product X · Wq.  The scores of a head are the contraction over d times 1/8; the row maximum
  is a fold of max from −∞ (so taking the maximum with −∞ once more changes nothing); the exponentials below the
  maximum are summed from 0 and divided; the weights contract with the values over the positions t.  Undoing the head
  transposition puts head h, coordinate d at column h·64 + d, so for a column e the head is e / 64 and the coordinate
  e % 64, and the last product with Wo is again the plain matrix product read row b·2048 + s.
-/
import proofs.«164267_j82918638616721_2_alg».proof.Proof.Gen.ReferenceIdeal.Read
import proofs.«164267_j82918638616721_2_alg».proof.Proof.Spec
import Idealize.ShloMosaic.Lib.ValueIdx
import Idealize.ShloMosaic.PureOps.Ideal.Laws

noncomputable section

open scoped BigOperators

namespace Cert.Attn.Ref

open Idealize.ShloMosaic Idealize.ShloMosaic.ValueIdx Cert.ReferenceIdeal Cert.ReferenceIdeal.Gen Cert.ReferenceIdeal.Read Cert.Attn

variable (x : (⟨S2x2048x1024, .f32⟩ : BufTy).Contents (Elt Ideal)) (wq : (⟨S1024x3072, .f32⟩ : BufTy).Contents (Elt Ideal))

/-- Column of the projection holding coordinate d of head h of part c (0 query, 1 key, 2 value). -/
def col (c : Fin 3) (h : Fin 16) (d : Fin 64) : Fin 3072 :=
  ⟨c.val * 1024 + h.val * 64 + d.val, by have := c.isLt; have := h.isLt; have := d.isLt; omega⟩

/-- The projection at (b, s, f) is the matrix product X · Wq at row b·2048 + s, column f. -/
theorem v0_at (b : Fin 2) (s : Fin 2048) (f : Fin 3072) :
    val_main_v0 (F := Ideal) x wq (ix3 b s f) = mm (X2 x) wq (row b s) f := by
  rw [val_main_v0_apply]
  unfold mm
  refine Finset.sum_congr rfl fun k _ => ?_
  have hb := b.isLt
  have hs := s.isLt
  have e1 : x (lidx_main_v0 (ix3 b s f) k) = X2 x (ix2 (row b s) k) := by
    unfold X2
    refine congrArg x (funext fun a => Fin.ext ?_)
    match a with
    | ⟨0, _⟩ => show b.val = (b.val * 2048 + s.val) / 2048; omega
    | ⟨1, _⟩ => show s.val = (b.val * 2048 + s.val) % 2048; omega
    | ⟨2, _⟩ => rfl
  have e2 : wq (ridx_main_v0 (ix3 b s f) k) = wq (ix2 k f) :=
    congrArg wq (funext fun a => Fin.ext (by match a with | ⟨0, _⟩ => rfl | ⟨1, _⟩ => rfl))
  rw [e1, e2]

/-- The regrouped and transposed projection at (c, b, h, s, d) is the projection at (b, s, c·1024 + h·64 + d). -/
theorem v2_at (c : Fin 3) (b : Fin 2) (h : Fin 16) (s : Fin 2048) (d : Fin 64) :
    val_main_v2 (F := Ideal) x wq (ix5 c b h s d) = val_main_v0 (F := Ideal) x wq (ix3 b s (col c h d)) := by
  rw [val_main_v2_apply, val_main_v1_apply]
  refine congrArg (val_main_v0 (F := Ideal) x wq) (funext fun a => Fin.ext ?_)
  have hc := c.isLt
  have hb := b.isLt
  have hh := h.isLt
  have hs := s.isLt
  have hd := d.isLt
  match a with
  | ⟨0, _⟩ =>
    show ((((b.val * 2048 + s.val) * 3 + c.val) * 16 + h.val) * 64 + d.val) / 6291456 = b.val
    omega
  | ⟨1, _⟩ =>
    show ((((b.val * 2048 + s.val) * 3 + c.val) * 16 + h.val) * 64 + d.val) / 3072 % 2048 = s.val
    omega
  | ⟨2, _⟩ =>
    show ((((b.val * 2048 + s.val) * 3 + c.val) * 16 + h.val) * 64 + d.val) % 3072 = c.val * 1024 + h.val * 64 + d.val
    omega

/-- Dropping the leading unit axis of a one-part slice keeps (b, h, s, d). -/
theorem idx4_at (b : Fin 2) (h : Fin 16) (s : Fin 2048) (d : Fin 64) :
    idx_main_v4 (ix4 b h s d) = ix5 (0 : Fin 1) b h s d := by
  have hb := b.isLt
  have hh := h.isLt
  have hs := s.isLt
  have hd := d.isLt
  refine funext fun a => Fin.ext ?_
  match a with
  | ⟨0, _⟩ => rfl
  | ⟨1, _⟩ => show (((b.val * 16 + h.val) * 2048 + s.val) * 64 + d.val) / 2097152 % 2 = b.val; omega
  | ⟨2, _⟩ => show (((b.val * 16 + h.val) * 2048 + s.val) * 64 + d.val) / 131072 % 16 = h.val; omega
  | ⟨3, _⟩ => show (((b.val * 16 + h.val) * 2048 + s.val) * 64 + d.val) / 64 % 2048 = s.val; omega
  | ⟨4, _⟩ => show (((b.val * 16 + h.val) * 2048 + s.val) * 64 + d.val) % 64 = d.val; omega

/-- The queries at (b, h, s, d). -/
theorem v4_at (b : Fin 2) (h : Fin 16) (s : Fin 2048) (d : Fin 64) :
    val_main_v4 (F := Ideal) x wq (ix4 b h s d) = val_main_v0 (F := Ideal) x wq (ix3 b s (col 0 h d)) := by
  rw [val_main_v4_apply, idx4_at, val_main_v3_apply]
  refine Eq.trans (congrArg (val_main_v2 (F := Ideal) x wq) ?_) (v2_at x wq 0 b h s d)
  refine funext fun a => Fin.ext ?_
  match a with
  | ⟨0, _⟩ => rfl
  | ⟨1, _⟩ => rfl
  | ⟨2, _⟩ => rfl
  | ⟨3, _⟩ => rfl
  | ⟨4, _⟩ => rfl

/-- The keys at (b, h, t, d). -/
theorem v6_at (b : Fin 2) (h : Fin 16) (t : Fin 2048) (d : Fin 64) :
    val_main_v6 (F := Ideal) x wq (ix4 b h t d) = val_main_v0 (F := Ideal) x wq (ix3 b t (col 1 h d)) := by
  rw [val_main_v6_apply, show idx_main_v6 (ix4 b h t d) = ix5 (0 : Fin 1) b h t d from idx4_at b h t d, val_main_v5_apply]
  refine Eq.trans (congrArg (val_main_v2 (F := Ideal) x wq) ?_) (v2_at x wq 1 b h t d)
  refine funext fun a => Fin.ext ?_
  match a with
  | ⟨0, _⟩ => rfl
  | ⟨1, _⟩ => rfl
  | ⟨2, _⟩ => rfl
  | ⟨3, _⟩ => rfl
  | ⟨4, _⟩ => rfl

/-- The values at (b, h, t, d). -/
theorem v8_at (b : Fin 2) (h : Fin 16) (t : Fin 2048) (d : Fin 64) :
    val_main_v8 (F := Ideal) x wq (ix4 b h t d) = val_main_v0 (F := Ideal) x wq (ix3 b t (col 2 h d)) := by
  rw [val_main_v8_apply, show idx_main_v8 (ix4 b h t d) = ix5 (0 : Fin 1) b h t d from idx4_at b h t d, val_main_v7_apply]
  refine Eq.trans (congrArg (val_main_v2 (F := Ideal) x wq) ?_) (v2_at x wq 2 b h t d)
  refine funext fun a => Fin.ext ?_
  match a with
  | ⟨0, _⟩ => rfl
  | ⟨1, _⟩ => rfl
  | ⟨2, _⟩ => rfl
  | ⟨3, _⟩ => rfl
  | ⟨4, _⟩ => rfl

/-- The query row of head h of batch b at position s, read off the projection. -/
def qf (b : Fin 2) (h : Fin 16) (s : Fin 2048) : Fin 64 → EReal :=
  fun d => val_main_v0 (F := Ideal) x wq (ix3 b s (col 0 h d))
/-- The key rows of head h of batch b. -/
def kf (b : Fin 2) (h : Fin 16) : Fin 2048 → Fin 64 → EReal :=
  fun t d => val_main_v0 (F := Ideal) x wq (ix3 b t (col 1 h d))
/-- Coordinate d of the value rows of head h of batch b. -/
def vf (b : Fin 2) (h : Fin 16) (d : Fin 64) : Fin 2048 → EReal :=
  fun t => val_main_v0 (F := Ideal) x wq (ix3 b t (col 2 h d))

/-- The unscaled scores: queries contracted with keys over the 64 coordinates. -/
theorem v9_at (b : Fin 2) (h : Fin 16) (s t : Fin 2048) :
    val_main_v9 (F := Ideal) x wq (ix4 b h s t) = ∑ d : Fin 64, qf x wq b h s d * kf x wq b h t d := by
  rw [val_main_v9_apply]
  refine Finset.sum_congr rfl fun d _ => ?_
  have e1 : lidx_main_v9 (ix4 b h s t) d = ix4 b h s d :=
    funext fun a => Fin.ext (by match a with | ⟨0, _⟩ => rfl | ⟨1, _⟩ => rfl | ⟨2, _⟩ => rfl | ⟨3, _⟩ => rfl)
  have e2 : ridx_main_v9 (ix4 b h s t) d = ix4 b h t d :=
    funext fun a => Fin.ext (by match a with | ⟨0, _⟩ => rfl | ⟨1, _⟩ => rfl | ⟨2, _⟩ => rfl | ⟨3, _⟩ => rfl)
  rw [e1, e2, v4_at, v6_at]
  rfl

/-- The scaled scores. -/
theorem v11_at (b : Fin 2) (h : Fin 16) (s t : Fin 2048) :
    val_main_v11 (F := Ideal) x wq (ix4 b h s t) = sc (qf x wq b h s) (kf x wq b h) t := by
  rw [val_main_v11_apply, val_main_v10_apply, val_main_cst_apply, v9_at]
  rfl

/-- Putting position t back on the reduced axis of (b, h, s) gives (b, h, s, t). -/
theorem lift3_at (hr : S2x16x2048x2048.Reduces [3] S2x16x2048) (b : Fin 2) (h : Fin 16) (s : Fin 2048)
    (k : Fin (S2x16x2048x2048.size 3)) : hr.lift (ix3 b h s) k = ix4 b h s (⟨k.val, k.isLt⟩ : Fin 2048) := by
  funext c; apply Fin.ext
  fin_cases c <;> rfl

/-- The row maximum: the reduction with a maximum body from −∞ along the positions t is the fold of max. -/
theorem v12_at (b : Fin 2) (h : Fin 16) (s : Fin 2048) :
    val_main_v12 (F := Ideal) x wq (ix3 b h s) = mx (qf x wq b h s) (kf x wq b h) := by
  unfold val_main_v12
  have hy : ∀ t : Fin 2048, val_main_v11 (F := Ideal) x wq (ix4 b h s t) = sc (qf x wq b h s) (kf x wq b h) t :=
    v11_at x wq b h s
  generalize val_main_v11 (F := Ideal) x wq = y at hy ⊢
  have hr : S2x16x2048x2048.Reduces [3] S2x16x2048 := by decide
  refine (Host.reduce_eq_fold_single (FloatOps.maximumf (F := Ideal) (φ := .f32)) y _ reducesTo_S2x16x2048x2048_S2x16x2048_d3 hr h_S_ (ix3 b h s)).trans ?_
  have hf : (y ∘ hr.lift (ix3 b h s)) = fun t : Fin 2048 => sc (qf x wq b h s) (kf x wq b h) t :=
    funext fun k => (congrArg y (lift3_at hr b h s k)).trans (hy _)
  rw [hf]
  rfl

/-- Taking the maximum with −∞ once more leaves the row maximum: a fold of max from −∞ is at least −∞. -/
theorem v14_at (b : Fin 2) (h : Fin 16) (s : Fin 2048) :
    val_main_v14 (F := Ideal) x wq (ix3 b h s) = mx (qf x wq b h s) (kf x wq b h) := by
  rw [val_main_v14_apply, val_main_v13_apply, val_main_cst_1_apply, v12_at]
  show max ninf (mx (qf x wq b h s) (kf x wq b h)) = mx (qf x wq b h s) (kf x wq b h)
  refine max_eq_right ?_
  unfold mx
  exact (Finset.le_fold_max _).mpr (Or.inl le_rfl)

/-- The row maximum spread back along the positions. -/
theorem v16_at (b : Fin 2) (h : Fin 16) (s t : Fin 2048) :
    val_main_v16 (F := Ideal) x wq (ix4 b h s t) = mx (qf x wq b h s) (kf x wq b h) := by
  rw [val_main_v16_apply, val_main_v15_apply]
  refine Eq.trans (congrArg (val_main_v14 (F := Ideal) x wq) ?_) (v14_at x wq b h s)
  exact funext fun a => Fin.ext (by match a with | ⟨0, _⟩ => rfl | ⟨1, _⟩ => rfl | ⟨2, _⟩ => rfl)

/-- The exponentials of the scores below the row maximum. -/
theorem v18_at (b : Fin 2) (h : Fin 16) (s t : Fin 2048) :
    val_main_v18 (F := Ideal) x wq (ix4 b h s t) = pe (qf x wq b h s) (kf x wq b h) t := by
  rw [val_main_v18_apply, val_main_v17_apply, v11_at, v16_at]
  rfl

/-- The row sums of the exponentials: the sum starts from 0. -/
theorem v19_at (b : Fin 2) (h : Fin 16) (s : Fin 2048) :
    val_main_v19 (F := Ideal) x wq (ix3 b h s) = ∑ t : Fin 2048, pe (qf x wq b h s) (kf x wq b h) t := by
  rw [val_main_v19_apply, val_main_cst_2_apply]
  show Ideal.ofBits .f32 0x00000000#32 + _ = _
  rw [Ideal.ofBits_zero_f32, zero_add]
  refine Finset.sum_congr rfl fun t _ => ?_
  refine Eq.trans (congrArg (val_main_v18 (F := Ideal) x wq) ?_) (v18_at x wq b h s t)
  exact funext fun a => Fin.ext (by match a with | ⟨0, _⟩ => rfl | ⟨1, _⟩ => rfl | ⟨2, _⟩ => rfl | ⟨3, _⟩ => rfl)

/-- The row sums spread back along the positions. -/
theorem v21_at (b : Fin 2) (h : Fin 16) (s t : Fin 2048) :
    val_main_v21 (F := Ideal) x wq (ix4 b h s t) = ∑ t' : Fin 2048, pe (qf x wq b h s) (kf x wq b h) t' := by
  rw [val_main_v21_apply, val_main_v20_apply]
  refine Eq.trans (congrArg (val_main_v19 (F := Ideal) x wq) ?_) (v19_at x wq b h s)
  exact funext fun a => Fin.ext (by match a with | ⟨0, _⟩ => rfl | ⟨1, _⟩ => rfl | ⟨2, _⟩ => rfl)

/-- The softmax weights. -/
theorem v22_at (b : Fin 2) (h : Fin 16) (s t : Fin 2048) :
    val_main_v22 (F := Ideal) x wq (ix4 b h s t)
      = Ideal.div (pe (qf x wq b h s) (kf x wq b h) t) (∑ t' : Fin 2048, pe (qf x wq b h s) (kf x wq b h) t') := by
  rw [val_main_v22_apply, v18_at, v21_at]
  rfl

/-- The weights contracted with the values over the positions. -/
theorem v23_at (b : Fin 2) (h : Fin 16) (s : Fin 2048) (d : Fin 64) :
    val_main_v23 (F := Ideal) x wq (ix4 b h s d) = softCtx (qf x wq b h s) (kf x wq b h) (vf x wq b h d) := by
  rw [val_main_v23_apply]
  unfold softCtx
  refine Finset.sum_congr rfl fun t _ => ?_
  have e1 : lidx_main_v23 (ix4 b h s d) t = ix4 b h s t :=
    funext fun a => Fin.ext (by match a with | ⟨0, _⟩ => rfl | ⟨1, _⟩ => rfl | ⟨2, _⟩ => rfl | ⟨3, _⟩ => rfl)
  have e2 : ridx_main_v23 (ix4 b h s d) t = ix4 b h t d :=
    funext fun a => Fin.ext (by match a with | ⟨0, _⟩ => rfl | ⟨1, _⟩ => rfl | ⟨2, _⟩ => rfl | ⟨3, _⟩ => rfl)
  rw [e1, e2, v22_at, v8_at]
  rfl

/-- Head of context column e. -/
def hd (e : Fin 1024) : Fin 16 := ⟨e.val / 64, by have := e.isLt; omega⟩
/-- Coordinate of context column e within its head. -/
def cd (e : Fin 1024) : Fin 64 := ⟨e.val % 64, Nat.mod_lt _ (by norm_num)⟩

/-- Undoing the head transposition: column e of the context is head e / 64, coordinate e % 64. -/
theorem v25_at (b : Fin 2) (s : Fin 2048) (e : Fin 1024) :
    val_main_v25 (F := Ideal) x wq (ix3 b s e)
      = softCtx (qf x wq b (hd e) s) (kf x wq b (hd e)) (vf x wq b (hd e) (cd e)) := by
  rw [val_main_v25_apply, val_main_v24_apply]
  refine Eq.trans (congrArg (val_main_v23 (F := Ideal) x wq) ?_) (v23_at x wq b (hd e) s (cd e))
  have hb := b.isLt
  have hs := s.isLt
  have he := e.isLt
  refine funext fun a => Fin.ext ?_
  match a with
  | ⟨0, _⟩ => show ((b.val * 2048 + s.val) * 1024 + e.val) / 2097152 = b.val; omega
  | ⟨1, _⟩ => show ((b.val * 2048 + s.val) * 1024 + e.val) / 64 % 16 = e.val / 64; omega
  | ⟨2, _⟩ => show ((b.val * 2048 + s.val) * 1024 + e.val) / 1024 % 2048 = s.val; omega
  | ⟨3, _⟩ => show ((b.val * 2048 + s.val) * 1024 + e.val) % 64 = e.val % 64; omega

/-- The context at (b, s, e) is the specification's context of the projected matrix at row b·2048 + s, column e:
    the rows of batch b are the rows b·2048 + t, and the three parts start at columns 0, 1024 and 2048. -/
theorem v25_ctx (b : Fin 2) (s : Fin 2048) (e : Fin 1024) :
    val_main_v25 (F := Ideal) x wq (ix3 b s e) = ctx (mmA (X2 x) wq) (row b s) e := by
  rw [v25_at]
  unfold ctx
  have hb := b.isLt
  have hs := s.isLt
  have he := e.isLt
  have hrow : ∀ t : Fin 2048, rowb (row b s) t = row b t := fun t =>
    Fin.ext (by have ht := t.isLt; show (b.val * 2048 + s.val) / 2048 * 2048 + t.val = b.val * 2048 + t.val; omega)
  have hq : qf x wq b (hd e) s = fun d => mmA (X2 x) wq (ix2 (row b s) (colq e d)) := funext fun d => by
    unfold qf
    rw [v0_at]
    show mm (X2 x) wq (row b s) (col 0 (hd e) d) = mm (X2 x) wq (row b s) (colq e d)
    refine congrArg (mm (X2 x) wq (row b s)) (Fin.ext ?_)
    show 0 * 1024 + e.val / 64 * 64 + d.val = e.val / 64 * 64 + d.val
    omega
  have hk : kf x wq b (hd e) = fun t d => mmA (X2 x) wq (ix2 (rowb (row b s) t) (colk e d)) := funext fun t => funext fun d => by
    unfold kf
    rw [v0_at, hrow]
    show mm (X2 x) wq (row b t) (col 1 (hd e) d) = mm (X2 x) wq (row b t) (colk e d)
    refine congrArg (mm (X2 x) wq (row b t)) (Fin.ext ?_)
    show 1 * 1024 + e.val / 64 * 64 + d.val = 1024 + e.val / 64 * 64 + d.val
    omega
  have hv : vf x wq b (hd e) (cd e) = fun t => mmA (X2 x) wq (ix2 (rowb (row b s) t) (colv e)) := funext fun t => by
    unfold vf
    rw [v0_at, hrow]
    show mm (X2 x) wq (row b t) (col 2 (hd e) (cd e)) = mm (X2 x) wq (row b t) (colv e)
    refine congrArg (mm (X2 x) wq (row b t)) (Fin.ext ?_)
    show 2 * 1024 + e.val / 64 * 64 + e.val % 64 = 2048 + e.val
    omega
  rw [hq, hk, hv]

/-- The reference program's result is the attention function of the specification. -/
theorem ref_eq (x : (⟨Cert.ReferenceIdeal.S2x2048x1024, .f32⟩ : BufTy).Contents (Elt Ideal)) (wq : (⟨Cert.ReferenceIdeal.S1024x3072, .f32⟩ : BufTy).Contents (Elt Ideal)) (wo : (⟨Cert.ReferenceIdeal.S1024x1024, .f32⟩ : BufTy).Contents (Elt Ideal)) :
    Cert.ReferenceIdeal.Read.val_main_v26 (F := Ideal) x wq wo = Cert.Attn.G x wq wo := by
  funext i
  obtain ⟨b, s, f, rfl⟩ : ∃ (b : Fin 2) (s : Fin 2048) (f : Fin 1024), i = ix3 b s f := ⟨i 0, i 1, i 2, eq_ix3 i⟩
  rw [val_main_v26_apply]
  show _ = mm (ctxA (mmA (X2 x) wq)) wo (row b s) f
  unfold mm
  refine Finset.sum_congr rfl fun k _ => ?_
  have e1 : lidx_main_v26 (ix3 b s f) k = ix3 b s k :=
    funext fun a => Fin.ext (by match a with | ⟨0, _⟩ => rfl | ⟨1, _⟩ => rfl | ⟨2, _⟩ => rfl)
  have e2 : ridx_main_v26 (ix3 b s f) k = ix2 k f :=
    funext fun a => Fin.ext (by match a with | ⟨0, _⟩ => rfl | ⟨1, _⟩ => rfl)
  rw [e1, e2, v25_ctx]
  rfl

end Cert.Attn.Ref

end
-- ==== Proof.lean ====
/-
  Multi-head self-attention as three kernel regions — the projection X · Wq, the attention of each head pair over
  blocks of 256 query rows, the projection by Wo — against the same computation written with einsums, reshapes and
  transposes on the host.

  Frames. The kernel program is five segments: a reshape, the three regions, a reshape. Each region's body loads its
  input blocks whole, computes, and overwrites its output block with one store, so the pipeline's invariant is only
  the untouched rest; the attention region's three input windows read one array, whose full share is cut in three on
  entry and joined on exit. Run as segments, every fair execution terminates without a fault and leaves every
  unscoped buffer at contents computed boundary by boundary; no segment writes an argument. This is proved once for
  any float instance and used for the word-level program and for the idealized one. The reference has no kernel; its
  run is a straight line of host operations.

  Values, over the extended reals. A change of float format is the identity, a matrix product into a zero accumulator
  is the plain sum Σ_k l(i,k)·r(k,j), the row maximum is a fold of max from −∞, and division and exp are the same
  functions in a kernel and on the host. So the kernel's result, read back through the regions' blocks, is the
  function G of the arguments (Spec): reshape x to 4096 × 1024, multiply by Wq, take per head
  softmax(q·kᵀ/8)·v with the columns laid out [query | key | value] × 16 heads × 64, multiply by Wo, reshape back.
  The reference computes the same G: its 5-axis reshape and transposes only rename indices, its extra
  max(−∞, ·) is the identity, and its sums start from 0. Only commutativity and associativity of + and · are used, so
  the precondition is not needed for the equality.
-/
import proofs.«164267_j82918638616721_2_alg».proof.Defs
import proofs.«164267_j82918638616721_2_alg».proof.Proof.Gen.Kernel
import proofs.«164267_j82918638616721_2_alg».proof.Proof.Gen.KernelIdeal
import proofs.«164267_j82918638616721_2_alg».proof.Proof.Gen.ReferenceIdeal
import proofs.«164267_j82918638616721_2_alg».proof.Proof.Gen.Pre_finite_inputs
import proofs.«164267_j82918638616721_2_alg».proof.Proof.Gen.ReferenceIdeal.Run
import proofs.«164267_j82918638616721_2_alg».proof.Proof.Gen.ReferenceIdeal.Read
import proofs.«164267_j82918638616721_2_alg».proof.Proof.KRun
import proofs.«164267_j82918638616721_2_alg».proof.Proof.ValueChain
import proofs.«164267_j82918638616721_2_alg».proof.Proof.RefSide
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel := fun m ρ _ =>
  (θ_run Cert.Kernel.defs _ _).mono (fun _ h c =>
    ⟨(h c _ (Cert.Kernel.Att.mem_uc Cert.Kernel.main_arg0 (by decide))).trans (Cert.Kernel.Att.W5_main_arg0 m ρ c),
     (h c _ (Cert.Kernel.Att.mem_uc Cert.Kernel.main_arg1 (by decide))).trans (Cert.Kernel.Att.W5_main_arg1 m ρ c),
     (h c _ (Cert.Kernel.Att.mem_uc Cert.Kernel.main_arg2 (by decide))).trans (Cert.Kernel.Att.W5_main_arg2 m ρ c)⟩)
    (Cert.Kernel.Att.run_all (F := Bits) m ρ)

/-- The idealized program runs and leaves its arguments as launched. -/
theorem frame_ki : Cert.frame_KernelIdeal := fun m ρ _ =>
  (θ_run Cert.KernelIdeal.defs _ _).mono (fun _ h c =>
    ⟨(h c _ (Cert.KernelIdeal.Att.mem_uc Cert.KernelIdeal.main_arg0 (by decide))).trans (Cert.KernelIdeal.Att.W5_main_arg0 m ρ c),
     (h c _ (Cert.KernelIdeal.Att.mem_uc Cert.KernelIdeal.main_arg1 (by decide))).trans (Cert.KernelIdeal.Att.W5_main_arg1 m ρ c),
     (h c _ (Cert.KernelIdeal.Att.mem_uc Cert.KernelIdeal.main_arg2 (by decide))).trans (Cert.KernelIdeal.Att.W5_main_arg2 m ρ c)⟩)
    (Cert.KernelIdeal.Att.run_all (F := Ideal) m ρ)

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the attention function G of the (agreeing) arguments in their result. -/
theorem algebraic : Cert.algebraic_KernelIdeal_ReferenceIdeal := by
  intro m ρ m' ρ' _ hagree
  refine ⟨fun c => Cert.KernelIdeal.Att.W5 m ρ c (Proc.devRef .tc Cert.KernelIdeal.main_v4), ?_, ?_⟩
  · exact (θ_run Cert.KernelIdeal.defs _ _).mono (fun _ h c =>
      ⟨h c _ (Cert.KernelIdeal.Att.mem_uc Cert.KernelIdeal.main_v4 (by decide)),
       (h c _ (Cert.KernelIdeal.Att.mem_uc Cert.KernelIdeal.main_arg0 (by decide))).trans (Cert.KernelIdeal.Att.W5_main_arg0 m ρ c),
       (h c _ (Cert.KernelIdeal.Att.mem_uc Cert.KernelIdeal.main_arg1 (by decide))).trans (Cert.KernelIdeal.Att.W5_main_arg1 m ρ c),
       (h c _ (Cert.KernelIdeal.Att.mem_uc Cert.KernelIdeal.main_arg2 (by decide))).trans (Cert.KernelIdeal.Att.W5_main_arg2 m ρ c)⟩)
      (Cert.KernelIdeal.Att.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v26_eq, Cert.Attn.Ref.ref_eq, (hagree c).1, (hagree c).2.1, (hagree c).2.2]
    exact (Cert.KernelIdeal.Att.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
